-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_scale" .f32 0x3D21E89B#32 ((262144 / 6631777 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256 : Shape := ⟨2, ![16, 256]⟩
abbrev S50257x640 : Shape := ⟨2, ![50257, 640]⟩
abbrev S256x640 : Shape := ⟨2, ![256, 640]⟩
abbrev S640x640 : Shape := ⟨2, ![640, 640]⟩
abbrev S50257 : Shape := ⟨1, ![50257]⟩
abbrev S_ : Shape := ⟨0, ![]⟩

class Facts : Prop where
  bcast_S_S50257x640 : S_.BroadcastsInDim S50257x640 (![] : Fin 0 → Fin S50257x640.rank)
  reducesTo_S50257x640_S_d0_1 : S50257x640.ReducesTo [0, 1] S_
  h_S_ : 0 < S_.numel
  bcast_S_S256x640 : S_.BroadcastsInDim S256x640 (![] : Fin 0 → Fin S256x640.rank)
  reducesTo_S256x640_S_d0_1 : S256x640.ReducesTo [0, 1] S_
  bcast_S_S640x640 : S_.BroadcastsInDim S640x640 (![] : Fin 0 → Fin S640x640.rank)
  reducesTo_S640x640_S_d0_1 : S640x640.ReducesTo [0, 1] S_
  bcast_S_S50257 : S_.BroadcastsInDim S50257 (![] : Fin 0 → Fin S50257.rank)
  reducesTo_S50257_S_d0 : S50257.ReducesTo [0] S_

variable [Facts]

def fn_part1 {F : FTy → Type} [FloatOps F] (main_arg5 : FVec F S640x640 .f32) (main_arg6 : FVec F S50257x640 .f32) (main_arg7 : FVec F S50257 .f32) (main_v13 : IVec S_ 1) (main_v16 : IVec S640x640 1) : IVec S_ 1 :=
  let main_c_5 : IVec S_ 1 := constantI S_ 1 1#1
  let main_v17 : IVec S_ 1 := (fun x v => Host.reduce IntOp.andi x v reducesTo_S640x640_S_d0_1 h_S_) main_v16 main_c_5
  let main_v18 : IVec S_ 1 := andi main_v13 main_v17
  let main_v19 : FVec F S640x640 .f32 := Host.absf main_arg5
  let main_cst_6 : FVec F S_ .f32 := constant S_ .f32 0x7F800000#32
  let main_v20 : FVec F S640x640 .f32 := broadcastInDim S640x640 ![] bcast_S_S640x640 main_cst_6
  let main_v21 : IVec S640x640 1 := cmpf .olt main_v19 main_v20
  let main_c_7 : IVec S_ 1 := constantI S_ 1 1#1
  let main_v22 : IVec S_ 1 := (fun x v => Host.reduce IntOp.andi x v reducesTo_S640x640_S_d0_1 h_S_) main_v21 main_c_7
  let main_v23 : IVec S_ 1 := andi main_v18 main_v22
  let main_v24 : FVec F S50257x640 .f32 := Host.absf main_arg6
  let main_cst_8 : FVec F S_ .f32 := constant S_ .f32 0x7F800000#32
  let main_v25 : FVec F S50257x640 .f32 := broadcastInDim S50257x640 ![] bcast_S_S50257x640 main_cst_8
  let main_v26 : IVec S50257x640 1 := cmpf .olt main_v24 main_v25
  let main_c_9 : IVec S_ 1 := constantI S_ 1 1#1
  let main_v27 : IVec S_ 1 := (fun x v => Host.reduce IntOp.andi x v reducesTo_S50257x640_S_d0_1 h_S_) main_v26 main_c_9
  let main_v28 : IVec S_ 1 := andi main_v23 main_v27
  let main_v29 : FVec F S50257 .f32 := Host.absf main_arg7
  let main_cst_10 : FVec F S_ .f32 := constant S_ .f32 0x7F800000#32
  let main_v30 : FVec F S50257 .f32 := broadcastInDim S50257 ![] bcast_S_S50257 main_cst_10
  let main_v31 : IVec S50257 1 := cmpf .olt main_v29 main_v30
  let main_c_11 : IVec S_ 1 := constantI S_ 1 1#1
  let main_v32 : IVec S_ 1 := (fun x v => Host.reduce IntOp.andi x v reducesTo_S50257_S_d0 h_S_) main_v31 main_c_11
  let main_v33 : IVec S_ 1 := andi main_v28 main_v32
  main_v33

def fn {F : FTy → Type} [FloatOps F] (main_arg0 : IVec S16x256 32) (main_arg1 : FVec F S50257x640 .f32) (main_arg2 : FVec F S256x640 .f32) (main_arg3 : FVec F S640x640 .f32) (main_arg4 : FVec F S640x640 .f32) (main_arg5 : FVec F S640x640 .f32) (main_arg6 : FVec F S50257x640 .f32) (main_arg7 : FVec F S50257 .f32) : IVec S_ 1 :=
  let main_v0 : FVec F S50257x640 .f32 := Host.absf main_arg1
  let main_cst : FVec F S_ .f32 := constant S_ .f32 0x7F800000#32
  let main_v1 : FVec F S50257x640 .f32 := broadcastInDim S50257x640 ![] bcast_S_S50257x640 main_cst
  let main_v2 : IVec S50257x640 1 := cmpf .olt main_v0 main_v1
  let main_c : IVec S_ 1 := constantI S_ 1 1#1
  let main_v3 : IVec S_ 1 := (fun x v => Host.reduce IntOp.andi x v reducesTo_S50257x640_S_d0_1 h_S_) main_v2 main_c
  let main_v4 : FVec F S256x640 .f32 := Host.absf main_arg2
  let main_cst_0 : FVec F S_ .f32 := constant S_ .f32 0x7F800000#32
  let main_v5 : FVec F S256x640 .f32 := broadcastInDim S256x640 ![] bcast_S_S256x640 main_cst_0
  let main_v6 : IVec S256x640 1 := cmpf .olt main_v4 main_v5
  let main_c_1 : IVec S_ 1 := constantI S_ 1 1#1
  let main_v7 : IVec S_ 1 := (fun x v => Host.reduce IntOp.andi x v reducesTo_S256x640_S_d0_1 h_S_) main_v6 main_c_1
  let main_v8 : IVec S_ 1 := andi main_v3 main_v7
  let main_v9 : FVec F S640x640 .f32 := Host.absf main_arg3
  let main_cst_2 : FVec F S_ .f32 := constant S_ .f32 0x7F800000#32
  let main_v10 : FVec F S640x640 .f32 := broadcastInDim S640x640 ![] bcast_S_S640x640 main_cst_2
  let main_v11 : IVec S640x640 1 := cmpf .olt main_v9 main_v10
  let main_c_3 : IVec S_ 1 := constantI S_ 1 1#1
  let main_v12 : IVec S_ 1 := (fun x v => Host.reduce IntOp.andi x v reducesTo_S640x640_S_d0_1 h_S_) main_v11 main_c_3
  let main_v13 : IVec S_ 1 := andi main_v8 main_v12
  let main_v14 : FVec F S640x640 .f32 := Host.absf main_arg4
  let main_cst_4 : FVec F S_ .f32 := constant S_ .f32 0x7F800000#32
  let main_v15 : FVec F S640x640 .f32 := broadcastInDim S640x640 ![] bcast_S_S640x640 main_cst_4
  let main_v16 : IVec S640x640 1 := cmpf .olt main_v14 main_v15
  fn_part1 (F := F) main_arg5 main_arg6 main_arg7 main_v13 main_v16
-- ==== Kernel.lean ====
abbrev S16x256 : Shape := ⟨2, ![16, 256]⟩
abbrev S50257x640 : Shape := ⟨2, ![50257, 640]⟩
abbrev S256x640 : Shape := ⟨2, ![256, 640]⟩
abbrev S640x640 : Shape := ⟨2, ![640, 640]⟩
abbrev S50257 : Shape := ⟨1, ![50257]⟩
abbrev S_ : Shape := ⟨0, ![]⟩
abbrev S16x256x1 : Shape := ⟨3, ![16, 256, 1]⟩
abbrev S16x256x640 : Shape := ⟨3, ![16, 256, 640]⟩
abbrev S1x256x640 : Shape := ⟨3, ![1, 256, 640]⟩
abbrev S256x256 : Shape := ⟨2, ![256, 256]⟩
abbrev S256 : Shape := ⟨1, ![256]⟩
abbrev S256x1 : Shape := ⟨2, ![256, 1]⟩
abbrev S4096x640 : Shape := ⟨2, ![4096, 640]⟩
abbrev S51200x640 : Shape := ⟨2, ![51200, 640]⟩
abbrev S51200 : Shape := ⟨1, ![51200]⟩
abbrev S1x51200 : Shape := ⟨2, ![1, 51200]⟩
abbrev S4096x50257 : Shape := ⟨2, ![4096, 50257]⟩
abbrev S1024x640 : Shape := ⟨2, ![1024, 640]⟩
abbrev S2048x640 : Shape := ⟨2, ![2048, 640]⟩
abbrev S1x2048 : Shape := ⟨2, ![1, 2048]⟩
abbrev S1024x2048 : Shape := ⟨2, ![1024, 2048]⟩
abbrev S16x256x50257 : Shape := ⟨3, ![16, 256, 50257]⟩

abbrev nBuf : Space → Nat
  | .hbm => 36
  | .vmem => 15
  | .smem => 0
  | _ => 0

abbrev bufTy : (tb : Table) → Fin (tcTables nBuf tb) → BufTy
  | .hbm, ⟨0, _⟩ => ⟨S16x256, .i32⟩
  | .hbm, ⟨1, _⟩ => ⟨S50257x640, .f32⟩
  | .hbm, ⟨2, _⟩ => ⟨S256x640, .f32⟩
  | .hbm, ⟨3, _⟩ => ⟨S640x640, .f32⟩
  | .hbm, ⟨4, _⟩ => ⟨S640x640, .f32⟩
  | .hbm, ⟨5, _⟩ => ⟨S640x640, .f32⟩
  | .hbm, ⟨6, _⟩ => ⟨S50257x640, .f32⟩
  | .hbm, ⟨7, _⟩ => ⟨S50257, .f32⟩
  | .hbm, ⟨8, _⟩ => ⟨S_, .i32⟩
  | .hbm, ⟨9, _⟩ => ⟨S16x256, .i32⟩
  | .hbm, ⟨10, _⟩ => ⟨S16x256, .i1⟩
  | .hbm, ⟨11, _⟩ => ⟨S_, .i32⟩
  | .hbm, ⟨12, _⟩ => ⟨S16x256, .i32⟩
  | .hbm, ⟨13, _⟩ => ⟨S16x256, .i32⟩
  | .hbm, ⟨14, _⟩ => ⟨S16x256, .i32⟩
  | .hbm, ⟨15, _⟩ => ⟨S16x256x1, .i32⟩
  | .hbm, ⟨16, _⟩ => ⟨S16x256x640, .f32⟩
  | .hbm, ⟨17, _⟩ => ⟨S1x256x640, .f32⟩
  | .hbm, ⟨18, _⟩ => ⟨S16x256x640, .f32⟩
  | .hbm, ⟨19, _⟩ => ⟨S16x256x640, .f32⟩
  | .hbm, ⟨20, _⟩ => ⟨S16x256x640, .bf16⟩
  | .hbm, ⟨21, _⟩ => ⟨S640x640, .bf16⟩
  | .hbm, ⟨22, _⟩ => ⟨S640x640, .bf16⟩
  | .hbm, ⟨23, _⟩ => ⟨S640x640, .bf16⟩
  | .hbm, ⟨24, _⟩ => ⟨S16x256x640, .bf16⟩
  | .hbm, ⟨25, _⟩ => ⟨S4096x640, .bf16⟩
  | .hbm, ⟨26, _⟩ => ⟨S50257x640, .bf16⟩
  | .hbm, ⟨27, _⟩ => ⟨S_, .i32⟩
  | .hbm, ⟨28, _⟩ => ⟨S_, .bf16⟩
  | .hbm, ⟨29, _⟩ => ⟨S51200x640, .bf16⟩
  | .hbm, ⟨30, _⟩ => ⟨S_, .i32⟩
  | .hbm, ⟨31, _⟩ => ⟨S_, .f32⟩
  | .hbm, ⟨32, _⟩ => ⟨S51200, .f32⟩
  | .hbm, ⟨33, _⟩ => ⟨S1x51200, .f32⟩
  | .hbm, ⟨34, _⟩ => ⟨S4096x50257, .f32⟩
  | .hbm, ⟨35, _⟩ => ⟨S16x256x50257, .f32⟩
  | .local _ .vmem, ⟨0, _⟩ => ⟨S1x256x640, .bf16⟩
  | .local _ .vmem, ⟨1, _⟩ => ⟨S1x256x640, .bf16⟩
  | .local _ .vmem, ⟨2, _⟩ => ⟨S640x640, .bf16⟩
  | .local _ .vmem, ⟨3, _⟩ => ⟨S640x640, .bf16⟩
  | .local _ .vmem, ⟨4, _⟩ => ⟨S640x640, .bf16⟩
  | .local _ .vmem, ⟨5, _⟩ => ⟨S1x256x640, .bf16⟩
  | .local _ .vmem, ⟨6, _⟩ => ⟨S1x256x640, .bf16⟩
  | .local _ .vmem, ⟨7, _⟩ => ⟨S1024x640, .bf16⟩
  | .local _ .vmem, ⟨8, _⟩ => ⟨S1024x640, .bf16⟩
  | .local _ .vmem, ⟨9, _⟩ => ⟨S2048x640, .bf16⟩
  | .local _ .vmem, ⟨10, _⟩ => ⟨S2048x640, .bf16⟩
  | .local _ .vmem, ⟨11, _⟩ => ⟨S1x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | _, _ => ⟨S16x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_call0_v0 : Ref sig .tc := ⟨.hbm, 28, rfl⟩
abbrev main_v17 : Ref sig .tc := ⟨.hbm, 29, rfl⟩
abbrev main_c_2 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S640x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![25, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S256x640_S1x256x640_1_2 : S256x640.BroadcastsInDim S1x256x640 (![1, 2] : Fin 2 → Fin S1x256x640.rank)
  bcast_S1x256x640_S16x256x640_0_1_2 : S1x256x640.BroadcastsInDim S16x256x640 (![0, 1, 2] : Fin 3 → Fin S16x256x640.rank)
  bitsLt_bf16_f32 : FTy.bits .bf16 < FTy.bits .f32
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  inb_S640x640_S640x640_0_0 : ∀ a, (![0, 0] : Fin 2 → Nat) a + S640x640.size a ≤ S640x640.size a
  h_S640x640 : 0 < S640x640.numel
  shapeCasts_S640x640_S640x640 : S640x640.ShapeCasts S640x640
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  shapeCasts_S256x640_S1x256x640 : S256x640.ShapeCasts S1x256x640
  packedbf16_S1x256x640_S1x256x640_0_0_0 : (Rect.unit (s := S1x256x640) ![0, 0, 0] S1x256x640.size inb_S1x256x640_S1x256x640_0_0_0).PackedRows (EltTy.packing .bf16)
  shapeCasts_S16x256x640_S4096x640 : S16x256x640.ShapeCasts S4096x640
  pads_S50257x640_S51200x640_09430_000 : S50257x640.Pads (![0, 0] : Fin 2 → Nat) ![943, 0] ![0, 0] S51200x640
  h_S_ : 0 < S_.numel
  pads_S50257_S51200_09430 : S50257.Pads (![0] : Fin 1 → Nat) ![943] ![0] S51200
  shapeCasts_S51200_S1x51200 : S51200.ShapeCasts S1x51200
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S2048x640_S2048x640_0_0 : ∀ a, (![0, 0] : Fin 2 → Nat) a + S2048x640.size a ≤ S2048x640.size a
  h_S2048x640 : 0 < S2048x640.numel
  shapeCasts_S2048x640_S2048x640 : S2048x640.ShapeCasts S2048x640
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S4096x50257_S16x256x50257 : S4096x50257.ShapeCasts S16x256x50257
  gather_S50257x640_S16x256x1_S16x256x640_2_0_n_n_0_2_1640_wf : GatherDims.WF S50257x640 S16x256x1 S16x256x640 [2] [0] [] [0] [] 2 ![1, 640]
  dot_S256x640_S640x640_S256x640_1_1_0_0_n_n_wf : DotDims.WF S256x640 S640x640 S256x640 [1] [1] [0] [0] [] []
  dot_S256x640_S256x640_S256x256_1_1_0_0_n_n_wf : DotDims.WF S256x640 S256x640 S256x256 [1] [1] [0] [0] [] []
  dot_S256x256_S256x640_S256x640_1_0_0_1_n_n_wf : DotDims.WF S256x256 S256x640 S256x640 [1] [0] [0] [1] [] []
  dot_S1024x640_S2048x640_S1024x2048_1_1_0_0_n_n_wf : DotDims.WF S1024x640 S2048x640 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x640.size a ≤ S16x256x640.size a
  hwx0_0 : ∀ i : grid0.Coords, EltTy.bits .bf16 = 32 ∨ (Rect.block (s := S16x256x640) S1x256x640.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x640.size a ≤ S640x640.size a
  hwx0_1 : ∀ i : grid0.Coords, EltTy.bits .bf16 = 32 ∨ (Rect.block (s := S640x640) S640x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x640.size a ≤ S640x640.size a
  hwx0_2 : ∀ i : grid0.Coords, EltTy.bits .bf16 = 32 ∨ (Rect.block (s := S640x640) S640x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x640.size a ≤ S640x640.size a
  hwx0_3 : ∀ i : grid0.Coords, EltTy.bits .bf16 = 32 ∨ (Rect.block (s := S640x640) S640x640.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x640.size a ≤ S16x256x640.size a
  hwx0_4 : ∀ i : grid0.Coords, EltTy.bits .bf16 = 32 ∨ (Rect.block (s := S16x256x640) S1x256x640.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x640.size a ≤ S4096x640.size a
  hwx1_0 : ∀ i : grid1.Coords, EltTy.bits .bf16 = 32 ∨ (Rect.block (s := S4096x640) S1024x640.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x640.size a ≤ S51200x640.size a
  hwx1_1 : ∀ i : grid1.Coords, EltTy.bits .bf16 = 32 ∨ (Rect.block (s := S51200x640) S2048x640.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x51200.size a
  hwx1_2 : ∀ i : grid1.Coords, EltTy.bits .f32 = 32 ∨ (Rect.block (s := S1x51200) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x2048.size a < S4096x50257.size a
  hwx1_3 : ∀ i : grid1.Coords, EltTy.bits .f32 = 32 ∨ (Rect.unit (s := S4096x50257) (fun a => cc1_transform_3 i a * S1024x2048.size a) (fun a => (Pipeline.Clip.of (cc1_transform_3 i a) (S1024x2048.size a) (S4096x50257.size a)).extent (S1024x2048.size a)) fun a => Pipeline.Clip.inb (Pipeline.Clip.ok_of (hstart1_3 i a))).WholeWords (EltTy.packing .f32)
  hwxs1_3 : ∀ i : grid1.Coords, EltTy.bits .f32 = 32 ∨ (Rect.unit (s := S1024x2048) (fun _ => 0) (fun a => (Pipeline.Clip.of (cc1_transform_3 i a) (S1024x2048.size a) (S4096x50257.size a)).extent (S1024x2048.size a)) fun a => (Nat.zero_add _).trans_le (Pipeline.Clip.extent_le (Pipeline.Clip.ok_of (hstart1_3 i a)))).WholeWords (EltTy.packing .f32)

variable [Facts₀]

def gather_S50257x640_S16x256x1_S16x256x640_2_0_n_n_0_2_1640 : GatherDims S50257x640 S16x256x1 S16x256x640 where
  offsetDims := [2]
  collapsedSliceDims := [0]
  operandBatchingDims := []
  startIndicesBatchingDims := []
  startIndexMap := [0]
  indexVectorDim := 2
  sliceSizes := ![1, 640]
  wf := gather_S50257x640_S16x256x1_S16x256x640_2_0_n_n_0_2_1640_wf
def dot_S256x640_S640x640_S256x640_1_1_0_0_n_n : DotDims S256x640 S640x640 S256x640 where
  lhsContracting := [1]
  rhsContracting := [1]
  lhsNonContracting := [0]
  rhsNonContracting := [0]
  lhsBatch := []
  rhsBatch := []
  wf := dot_S256x640_S640x640_S256x640_1_1_0_0_n_n_wf
def dot_S256x640_S256x640_S256x256_1_1_0_0_n_n : DotDims S256x640 S256x640 S256x256 where
  lhsContracting := [1]
  rhsContracting := [1]
  lhsNonContracting := [0]
  rhsNonContracting := [0]
  lhsBatch := []
  rhsBatch := []
  wf := dot_S256x640_S256x640_S256x256_1_1_0_0_n_n_wf
def dot_S256x256_S256x640_S256x640_1_0_0_1_n_n : DotDims S256x256 S256x640 S256x640 where
  lhsContracting := [1]
  rhsContracting := [0]
  lhsNonContracting := [0]
  rhsNonContracting := [1]
  lhsBatch := []
  rhsBatch := []
  wf := dot_S256x256_S256x640_S256x640_1_0_0_1_n_n_wf
def dot_S1024x640_S2048x640_S1024x2048_1_1_0_0_n_n : DotDims S1024x640 S2048x640 S1024x2048 where
  lhsContracting := [1]
  rhsContracting := [1]
  lhsNonContracting := [0]
  rhsNonContracting := [0]
  lhsBatch := []
  rhsBatch := []
  wf := dot_S1024x640_S2048x640_S1024x2048_1_1_0_0_n_n_wf

abbrev win0_0 : Pipeline.Window sig grid0 :=
  Pipeline.Window.ofSpec (Memref.whole main_v10) S1x256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S640x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S640x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S640x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S1024x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2048x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpecClip (Memref.whole main_v20) S1024x2048.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x256 : Shape := ⟨2, ![16, 256]⟩
abbrev S50257x640 : Shape := ⟨2, ![50257, 640]⟩
abbrev S256x640 : Shape := ⟨2, ![256, 640]⟩
abbrev S640x640 : Shape := ⟨2, ![640, 640]⟩
abbrev S50257 : Shape := ⟨1, ![50257]⟩
abbrev S_ : Shape := ⟨0, ![]⟩
abbrev S16x256x1 : Shape := ⟨3, ![16, 256, 1]⟩
abbrev S16x256x640 : Shape := ⟨3, ![16, 256, 640]⟩
abbrev S1x256x640 : Shape := ⟨3, ![1, 256, 640]⟩
abbrev S16x256x256 : Shape := ⟨3, ![16, 256, 256]⟩
abbrev S256x256 : Shape := ⟨2, ![256, 256]⟩
abbrev S16x256x50257 : Shape := ⟨3, ![16, 256, 50257]⟩
abbrev S1x1x50257 : Shape := ⟨3, ![1, 1, 50257]⟩

abbrev nBuf : Space → Nat
  | .hbm => 61
  | .vmem => 0
  | .smem => 0
  | _ => 0

abbrev bufTy : (tb : Table) → Fin (tcTables nBuf tb) → BufTy
  | .hbm, ⟨0, _⟩ => ⟨S16x256, .i32⟩
  | .hbm, ⟨1, _⟩ => ⟨S50257x640, .f32⟩
  | .hbm, ⟨2, _⟩ => ⟨S256x640, .f32⟩
  | .hbm, ⟨3, _⟩ => ⟨S640x640, .f32⟩
  | .hbm, ⟨4, _⟩ => ⟨S640x640, .f32⟩
  | .hbm, ⟨5, _⟩ => ⟨S640x640, .f32⟩
  | .hbm, ⟨6, _⟩ => ⟨S50257x640, .f32⟩
  | .hbm, ⟨7, _⟩ => ⟨S50257, .f32⟩
  | .hbm, ⟨8, _⟩ => ⟨S_, .i32⟩
  | .hbm, ⟨9, _⟩ => ⟨S16x256, .i32⟩
  | .hbm, ⟨10, _⟩ => ⟨S16x256, .i1⟩
  | .hbm, ⟨11, _⟩ => ⟨S_, .i32⟩
  | .hbm, ⟨12, _⟩ => ⟨S16x256, .i32⟩
  | .hbm, ⟨13, _⟩ => ⟨S16x256, .i32⟩
  | .hbm, ⟨14, _⟩ => ⟨S16x256, .i32⟩
  | .hbm, ⟨15, _⟩ => ⟨S16x256x1, .i32⟩
  | .hbm, ⟨16, _⟩ => ⟨S16x256x640, .f32⟩
  | .hbm, ⟨17, _⟩ => ⟨S1x256x640, .f32⟩
  | .hbm, ⟨18, _⟩ => ⟨S16x256x640, .f32⟩
  | .hbm, ⟨19, _⟩ => ⟨S16x256x640, .f32⟩
  | .hbm, ⟨20, _⟩ => ⟨S16x256x640, .f32⟩
  | .hbm, ⟨21, _⟩ => ⟨S16x256x640, .f32⟩
  | .hbm, ⟨22, _⟩ => ⟨S16x256x640, .f32⟩
  | .hbm, ⟨23, _⟩ => ⟨S16x256x256, .f32⟩
  | .hbm, ⟨24, _⟩ => ⟨S_, .f32⟩
  | .hbm, ⟨25, _⟩ => ⟨S16x256x256, .f32⟩
  | .hbm, ⟨26, _⟩ => ⟨S16x256x256, .f32⟩
  | .hbm, ⟨27, _⟩ => ⟨S_, .i1⟩
  | .hbm, ⟨28, _⟩ => ⟨S256x256, .i1⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S_, .i1⟩
  | .hbm, ⟨36, _⟩ => ⟨S256x256, .i1⟩
  | .hbm, ⟨37, _⟩ => ⟨S256x256, .i1⟩
  | .hbm, ⟨38, _⟩ => ⟨S_, .f32⟩
  | .hbm, ⟨39, _⟩ => ⟨S16x256x256, .i1⟩
  | .hbm, ⟨40, _⟩ => ⟨S16x256x256, .f32⟩
  | .hbm, ⟨41, _⟩ => ⟨S16x256x256, .f32⟩
  | .hbm, ⟨42, _⟩ => ⟨S_, .f32⟩
  | .hbm, ⟨43, _⟩ => ⟨S16x256, .f32⟩
  | .hbm, ⟨44, _⟩ => ⟨S_, .f32⟩
  | .hbm, ⟨45, _⟩ => ⟨S16x256, .f32⟩
  | .hbm, ⟨46, _⟩ => ⟨S16x256, .f32⟩
  | .hbm, ⟨47, _⟩ => ⟨S16x256x1, .f32⟩
  | .hbm, ⟨48, _⟩ => ⟨S16x256x256, .f32⟩
  | .hbm, ⟨49, _⟩ => ⟨S16x256x256, .f32⟩
  | .hbm, ⟨50, _⟩ => ⟨S16x256x256, .f32⟩
  | .hbm, ⟨51, _⟩ => ⟨S_, .f32⟩
  | .hbm, ⟨52, _⟩ => ⟨S16x256, .f32⟩
  | .hbm, ⟨53, _⟩ => ⟨S16x256x1, .f32⟩
  | .hbm, ⟨54, _⟩ => ⟨S16x256x256, .f32⟩
  | .hbm, ⟨55, _⟩ => ⟨S16x256x256, .f32⟩
  | .hbm, ⟨56, _⟩ => ⟨S16x256x640, .f32⟩
  | .hbm, ⟨57, _⟩ => ⟨S16x256x50257, .f32⟩
  | .hbm, ⟨58, _⟩ => ⟨S1x1x50257, .f32⟩
  | .hbm, ⟨59, _⟩ => ⟨S16x256x50257, .f32⟩
  | .hbm, ⟨60, _⟩ => ⟨S16x256x50257, .f32⟩
  | _, _ => ⟨S16x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v17 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩

abbrev nD : Nat := 1
abbrev τ : Topo := Topo.v7x

variable {F : FTy → Type} [FloatOps F]

class Facts₀ : Prop where
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S256x640_S1x256x640_1_2 : S256x640.BroadcastsInDim S1x256x640 (![1, 2] : Fin 2 → Fin S1x256x640.rank)
  bcast_S1x256x640_S16x256x640_0_1_2 : S1x256x640.BroadcastsInDim S16x256x640 (![0, 1, 2] : Fin 3 → Fin S16x256x640.rank)
  bcast_S_S16x256x256 : S_.BroadcastsInDim S16x256x256 (![] : Fin 0 → Fin S16x256x256.rank)
  bcast_S_S256x256 : S_.BroadcastsInDim S256x256 (![] : Fin 0 → Fin S256x256.rank)
  bcast_S256x256_S16x256x256_1_2 : S256x256.BroadcastsInDim S16x256x256 (![1, 2] : Fin 2 → Fin S16x256x256.rank)
  reducesTo_S16x256x256_S16x256_d2 : S16x256x256.ReducesTo [2] S16x256
  h_S_ : 0 < S_.numel
  bcast_S16x256x1_S16x256x256_0_1_2 : S16x256x1.BroadcastsInDim S16x256x256 (![0, 1, 2] : Fin 3 → Fin S16x256x256.rank)
  bcast_S50257_S1x1x50257_2 : S50257.BroadcastsInDim S1x1x50257 (![2] : Fin 1 → Fin S1x1x50257.rank)
  bcast_S1x1x50257_S16x256x50257_0_1_2 : S1x1x50257.BroadcastsInDim S16x256x50257 (![0, 1, 2] : Fin 3 → Fin S16x256x50257.rank)
  gather_S50257x640_S16x256x1_S16x256x640_2_0_n_n_0_2_1640_wf : GatherDims.WF S50257x640 S16x256x1 S16x256x640 [2] [0] [] [0] [] 2 ![1, 640]
  dot_S16x256x640_S640x640_S16x256x640_2_1_01_0_n_n_wf : DotDims.WF S16x256x640 S640x640 S16x256x640 [2] [1] [0, 1] [0] [] []
  dot_S16x256x640_S16x256x640_S16x256x256_2_2_1_1_0_0_wf : DotDims.WF S16x256x640 S16x256x640 S16x256x256 [2] [2] [1] [1] [0] [0]
  dot_S16x256x256_S16x256x640_S16x256x640_2_1_1_2_0_0_wf : DotDims.WF S16x256x256 S16x256x640 S16x256x640 [2] [1] [1] [2] [0] [0]
  dot_S16x256x640_S50257x640_S16x256x50257_2_1_01_0_n_n_wf : DotDims.WF S16x256x640 S50257x640 S16x256x50257 [2] [1] [0, 1] [0] [] []

variable [Facts₀]

def gather_S50257x640_S16x256x1_S16x256x640_2_0_n_n_0_2_1640 : GatherDims S50257x640 S16x256x1 S16x256x640 where
  offsetDims := [2]
  collapsedSliceDims := [0]
  operandBatchingDims := []
  startIndicesBatchingDims := []
  startIndexMap := [0]
  indexVectorDim := 2
  sliceSizes := ![1, 640]
  wf := gather_S50257x640_S16x256x1_S16x256x640_2_0_n_n_0_2_1640_wf
def dot_S16x256x640_S640x640_S16x256x640_2_1_01_0_n_n : DotDims S16x256x640 S640x640 S16x256x640 where
  lhsContracting := [2]
  rhsContracting := [1]
  lhsNonContracting := [0, 1]
  rhsNonContracting := [0]
  lhsBatch := []
  rhsBatch := []
  wf := dot_S16x256x640_S640x640_S16x256x640_2_1_01_0_n_n_wf
def dot_S16x256x640_S16x256x640_S16x256x256_2_2_1_1_0_0 : DotDims S16x256x640 S16x256x640 S16x256x256 where
  lhsContracting := [2]
  rhsContracting := [2]
  lhsNonContracting := [1]
  rhsNonContracting := [1]
  lhsBatch := [0]
  rhsBatch := [0]
  wf := dot_S16x256x640_S16x256x640_S16x256x256_2_2_1_1_0_0_wf
def dot_S16x256x256_S16x256x640_S16x256x640_2_1_1_2_0_0 : DotDims S16x256x256 S16x256x640 S16x256x640 where
  lhsContracting := [2]
  rhsContracting := [1]
  lhsNonContracting := [1]
  rhsNonContracting := [2]
  lhsBatch := [0]
  rhsBatch := [0]
  wf := dot_S16x256x256_S16x256x640_S16x256x640_2_1_1_2_0_0_wf
def dot_S16x256x640_S50257x640_S16x256x50257_2_1_01_0_n_n : DotDims S16x256x640 S50257x640 S16x256x50257 where
  lhsContracting := [2]
  rhsContracting := [1]
  lhsNonContracting := [0, 1]
  rhsNonContracting := [0]
  lhsBatch := []
  rhsBatch := []
  wf := dot_S16x256x640_S50257x640_S16x256x50257_2_1_01_0_n_n_wf

class Facts : Prop extends Facts₀ where

variable [Facts]
-- ==== Proof.KRun.lean ====
/-
  The idealized kernel program's run, with its result named.

  Every weakly fair execution of the program ends, nothing faulting, and the final memory holds, at the result's
  buffer, the contents the last host operation leaves there when the operations and the two kernel regions are
  composed from the launch memory; the argument arrays end as launched.
-/
import proofs.«155885_j89575837925919_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result's buffer ends at the composed contents, the arguments as launched. -/
theorem run : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v21 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.Spec.lean ====
/-
  The function both programs compute, written over plain finite index types on the extended reals.

  One sequence of 256 positions with 640 features is projected three ways (queries, keys, values), each position
  attends to the positions not after it through a softmax of scaled dot products, and the attended values are
  projected on a vocabulary of 50257 words with a bias.  Everything is a finite sum, a maximum, an exponential or a
  quotient of extended reals; no order of summation is fixed.
-/
import Idealize.ShloMosaic.PureOps.Ideal
import Idealize.ShloMosaic.Lib.ValueIdx

noncomputable section

open scoped BigOperators

namespace Cert.Attn

open Idealize.ShloMosaic

/-- The divisor of the dot products: the single-precision number nearest to the square root of 640. -/
def scaleD : EReal := Ideal.ofBits .f32 0x41CA62C2#32

/-- Minus infinity, as its single-precision word. -/
def negInf : EReal := Ideal.ofBits .f32 0xFF800000#32

section
variable (xb : Fin 256 → Fin 640 → EReal) (wq wk wv : Fin 640 → Fin 640 → EReal)

/-- A projection of position `t` on output feature `e`: the sum over input features of the entry times the weight. -/
def proj (w : Fin 640 → Fin 640 → EReal) (t : Fin 256) (e : Fin 640) : EReal :=
  ∑ d : Fin 640, xb t d * w e d

/-- The dot product of the query at `t` with the key at `u`. -/
def score (t u : Fin 256) : EReal :=
  ∑ e : Fin 640, proj xb wq t e * proj xb wk u e

/-- The scaled dot product, or minus infinity where the key's position is after the query's. -/
def masked (t u : Fin 256) : EReal :=
  if t.val < u.val then negInf else Ideal.div (score xb wq wk t u) scaleD

/-- The largest masked score of row `t`. -/
def rowMax (t : Fin 256) : EReal :=
  (Finset.univ : Finset (Fin 256)).fold max negInf (fun u => masked xb wq wk t u)

/-- The softmax weight of position `u` for the query at `t`. -/
def attn (t u : Fin 256) : EReal :=
  Ideal.div (Ideal.exp (masked xb wq wk t u - rowMax xb wq wk t))
    (∑ k : Fin 256, Ideal.exp (masked xb wq wk t k - rowMax xb wq wk t))

/-- The attended value at position `t`, feature `d`. -/
def ctx (t : Fin 256) (d : Fin 640) : EReal :=
  ∑ u : Fin 256, attn xb wq wk t u * proj xb wv u d

end

/-- One row of attended values projected on word `n`, plus that word's bias. -/
def logit (c : Fin 640 → EReal) (wo : Fin 50257 → Fin 640 → EReal) (bo : Fin 50257 → EReal) (n : Fin 50257) : EReal :=
  (∑ d : Fin 640, c d * wo n d) + bo n

end Cert.Attn

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«155885_j89575837925919_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibSoftmaxRows.lean ====
/-
  General lemmas for kernels that pool over a leading axis and take a softmax along the last axis, read at the exact
  (extended-real) instance. Generic in the extents.

  * `leadSum_apply`: a sum of a [C, A, B] array along its FIRST axis is at (p, q) the plain sum over c of the array at (c, p, q).
  * `leadMax_apply`: a maximum of a [C, A, B] array along its first axis, from a starting pattern, is at (p, q) the fold of
    max from that pattern's value over c of the array at (c, p, q).
  * `rowMax_apply`: a maximum of an [A, B] array along its last axis is at p the fold of max over k of the array at (p, k).
  * `keepdimsMax_apply`: the same kept as an [A, 1] column, at (p, u).
  * `broadcastTo_1ab_cab_apply`: a [1, A, B] array repeated C times along the first axis reads, at (c, p, q), the array at (0, p, q).
  * `softmaxRows_apply`: the softmax of an [A, B] array along its last axis as a kernel body spells it — row maximum from minus
    infinity kept as a column and repeated along the rows, subtracted, exponentiated, the row sum of that kept as a column and
    repeated, the quotient — is at (p, q) exp (f (p, q) − M) / ∑ₖ exp (f (p, k) − M), M the fold of max over the row.
-/
import Idealize.ShloMosaic.Lib.ValueIdx
import Idealize.ShloMosaic.Lib.ValueLayout
import Idealize.ShloMosaic.Lib.Pipeline.Value
import Idealize.ShloMosaic.PureOps.Ideal.Laws
import proofs.«155885_j89575837925919_2_alg».proof.Proof.LibColumns

noncomputable section

open scoped BigOperators

namespace Cert.SoftmaxRows

open Idealize.ShloMosaic Idealize.ShloMosaic.ValueIdx

/-! ## Pooling over the first axis of a rank-three array -/

/-- The sum of a [C, A, B] array along its first axis, at (p, q): the sum over c of the array at (c, p, q). -/
theorem leadSum_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.add.neutral φ hφ)
    (p : Fin A) (q : Fin B) :
    multiReduction .add [0] ⟨2, ![A, B]⟩ src acc h hφ hacc (ix2 p q) = ∑ c : Fin C, src (ix3 c p q) := by
  refine (Ideal.multiReduction_add_single src acc h hφ hacc (ix2 p q)).trans ?_
  refine Finset.sum_congr rfl fun k _ => congrArg src (funext fun d => Fin.ext ?_)
  rw [h.lift_val]
  match d with
  | ⟨0, _⟩ => rfl
  | ⟨1, _⟩ => rfl
  | ⟨2, _⟩ => rfl

/-- The maximum of a [C, A, B] array along its first axis, at (p, q): the fold of max, from the starting pattern's value,
    over c of the array at (c, p, q). -/
theorem leadMax_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.maximumf.neutral φ hφ)
    (p : Fin A) (q : Fin B) :
    multiReduction .maximumf [0] ⟨2, ![A, B]⟩ src acc h hφ hacc (ix2 p q)
      = (Finset.univ : Finset (Fin C)).fold max (Ideal.ofBits φ acc) (fun c => src (ix3 c p q)) := by
  refine (Ideal.multiReduction_maximumf_single src acc h hφ hacc (ix2 p q)).trans ?_
  refine congrArg ((Finset.univ : Finset (Fin C)).fold max (Ideal.ofBits φ acc)) (funext fun k => congrArg src (funext fun d => Fin.ext ?_))
  rw [h.lift_val]
  match d with
  | ⟨0, _⟩ => rfl
  | ⟨1, _⟩ => rfl
  | ⟨2, _⟩ => rfl

/-! ## A row's maximum -/

/-- The maximum of an [A, B] array along its last axis, at p: the fold of max over k of the array at (p, k). -/
theorem rowMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  refine (Ideal.multiReduction_maximumf_single src acc h hφ hacc (ix1 p)).trans ?_
  refine congrArg ((Finset.univ : Finset (Fin B)).fold max (Ideal.ofBits φ acc)) (funext fun k => congrArg src (funext fun d => Fin.ext ?_))
  rw [h.lift_val]
  match d with
  | ⟨0, _⟩ => rfl
  | ⟨1, _⟩ => rfl

/-- The same kept as an [A, 1] column: at (p, u) the fold of max over the row p. -/
theorem keepdimsMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ)
    (hs : (⟨1, ![A]⟩ : Shape).ShapeCasts ⟨2, ![A, 1]⟩) (p : Fin A) (u : Fin 1) :
    shapeCast ⟨2, ![A, 1]⟩ (multiReduction .maximumf [1] ⟨1, ![A]⟩ src acc h hφ hacc) hs (ix2 p u)
      = (Finset.univ : Finset (Fin B)).fold max (Ideal.ofBits φ acc) (fun k => src (ix2 p k)) :=
  (Cert.DenseRows.shapeCast_a_a1_apply _ hs p u).trans (rowMax_apply src acc h hφ hacc p)

/-! ## One plane repeated along a new first axis -/

/-- A [1, A, B] array broadcast to [C, A, B] reads, at (c, p, q), the array at (0, p, q). -/
theorem broadcastTo_1ab_cab_apply {α : Type} {C A B : ℕ} (v : (⟨3, ![1, A, B]⟩ : Shape).Idx → α)
    (h : (⟨3, ![1, A, B]⟩ : Shape).Broadcasts ⟨3, ![C, A, B]⟩) (c : Fin C) (p : Fin A) (q : Fin B) :
    broadcastTo ⟨3, ![C, A, B]⟩ v h (ix3 c p q) = v (ix3 (0 : Fin 1) p q) := by
  have hA : A = 1 → p.val = 0 := fun e => by have := p.isLt; omega
  have hB : B = 1 → q.val = 0 := fun e => by have := q.isLt; omega
  refine broadcastTo_apply v h (ix3 c p q) (ix3 (0 : Fin 1) p q) fun ax => ?_
  match ax with
  | ⟨0, _⟩ => rfl
  | ⟨1, _⟩ =>
    show p.val = if A = 1 then 0 else p.val
    split
    · exact hA ‹_›
    · rfl
  | ⟨2, _⟩ =>
    show q.val = if B = 1 then 0 else q.val
    split
    · exact hB ‹_›
    · rfl

/-! ## The softmax along the last axis, as a kernel body spells it -/

/-- Row maximum from minus infinity kept as a column and repeated along the rows, subtracted, exponentiated; the row sum of
    that kept as a column and repeated; the quotient. At (p, q): exp (f (p, q) − M) / ∑ₖ exp (f (p, k) − M), where M is the
    fold of max over row p from the starting pattern's value. -/
theorem softmaxRows_apply {A B : ℕ} (f : FVec Ideal ⟨2, ![A, B]⟩ .f32) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩)
    (p : Fin A) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (f (ix2 p q) - (Finset.univ : Finset (Fin B)).fold max (Ideal.ofBits .f32 lo) (fun k => f (ix2 p k))))
          (∑ k : Fin B, Ideal.exp (f (ix2 p k) - (Finset.univ : Finset (Fin B)).fold max (Ideal.ofBits .f32 lo) (fun k => f (ix2 p k)))) := by
  have hm : ∀ k : Fin B,
      broadcastTo ⟨2, ![A, B]⟩ (shapeCast ⟨2, ![A, 1]⟩ (multiReduction .maximumf [1] ⟨1, ![A]⟩ f lo hr hφ hmax) hs) hb (ix2 p k)
        = (Finset.univ : Finset (Fin B)).fold max (Ideal.ofBits .f32 lo) (fun k => f (ix2 p k)) := fun k =>
    (Cert.Columns.broadcastTo_a1_ab_apply _ hb p k).trans (keepdimsMax_apply f lo hr hφ hmax hs p 0)
  have he : ∀ k : Fin B,
      exp (subf f (broadcastTo ⟨2, ![A, B]⟩ (shapeCast ⟨2, ![A, 1]⟩ (multiReduction .maximumf [1] ⟨1, ![A]⟩ f lo hr hφ hmax) hs) hb)) (ix2 p k)
        = Ideal.exp (f (ix2 p k) - (Finset.univ : Finset (Fin B)).fold max (Ideal.ofBits .f32 lo) (fun k => f (ix2 p k))) := fun k =>
    congrArg (fun z => Ideal.exp (f (ix2 p k) - z)) (hm k)
  refine congrArg₂ Ideal.div (he q) ?_
  refine ((Cert.Columns.broadcastTo_a1_ab_apply _ hb p q).trans (Cert.Columns.keepdimsSum_apply _ _ hr hφ hadd hs p 0)).trans ?_
  exact Finset.sum_congr rfl fun k _ => he k

end Cert.SoftmaxRows

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«155885_j89575837925919_2_alg».proof.Proof.LibDenseRows
import proofs.«155885_j89575837925919_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.Consts.lean ====
/-
  The constants of the attention kernel and of its specification, each read once as the extended real it denotes.

  * The kernel's two named constants: "inv_scale" is the rational 262144 / 6631777 and "neg_big" is minus infinity.
  * The specification's divisor, the word 0x41CA62C2, is (2^23 + 4874946) · 2^(131 − 127 − 23) = 6631777 / 2^18, and its
    word 0xFF800000 is minus infinity.
  * Multiplying by 262144 / 6631777 is dividing by 6631777 / 262144, on every extended real.
-/
import proofs.«155885_j89575837925919_2_alg».proof.KernelIdeal
import proofs.«155885_j89575837925919_2_alg».proof.Proof.Spec
import Idealize.ShloMosaic.PureOps.Ideal
import Idealize.ShloMosaic.PureOps.IdealRules

noncomputable section

namespace Cert.KernelIdeal.PayValue

open Idealize.ShloMosaic

/-- The kernel's named reciprocal of the scale is the rational 262144 / 6631777. -/
theorem inv_scale_eq :
    Named.named (F := Ideal) Cert.KernelIdeal.κ "inv_scale" (φ := .f32) 0x3D21E89B#32 = ((262144 / 6631777 : ℝ) : EReal) :=
  IdealRules.named_const.ideal_named_scalar _ _ _ _ rfl

/-- The kernel's named mask value is minus infinity. -/
theorem neg_big_eq : Named.named (F := Ideal) Cert.KernelIdeal.κ "neg_big" (φ := .f32) 0xFF333332#32 = ⊥ :=
  IdealRules.named_const.ideal_named_scalar _ _ _ _ rfl

/-- The word 0xFF800000 denotes minus infinity. -/
theorem ofBits_negInf : Ideal.ofBits .f32 0xFF800000#32 = ⊥ := by
  simp [Ideal.ofBits, Ideal.ieee]

/-- The specification's minus infinity is minus infinity. -/
theorem negInf_eq : Cert.Attn.negInf = ⊥ := ofBits_negInf

/-- The specification's divisor is the rational 6631777 / 262144. -/
theorem scaleD_eq : Cert.Attn.scaleD = ((6631777 / 262144 : ℝ) : EReal) := by
  simp [Cert.Attn.scaleD, Ideal.ofBits, Ideal.ieee, -EReal.coe_mul]; norm_num

/-- The product with 262144 / 6631777 is the quotient by the specification's divisor. -/
theorem mul_inv_scale (s : EReal) : s * ((262144 / 6631777 : ℝ) : EReal) = Ideal.div s Cert.Attn.scaleD := by
  rw [scaleD_eq, Ideal.div_coe (by norm_num : (6631777 / 262144 : ℝ) ≠ 0)]
  norm_num

end Cert.KernelIdeal.PayValue

end
-- ==== Proof.Pay0.lean ====
/-
  The body of the attention kernel, read at one entry of its result at the exact (extended-real) instance: it is the
  attended value of the specification. First the stages, each read at one entry over variables of the body's literal
  vector types, then the whole body (`pay0_apply`).

  * `proj_apply`: a [1, 256, 640] block recast as [256, 640] times a [640, 640] weight over both last axes into a zero
    accumulator is at (t, e) the sum over d of x (0, t, d) · w (e, d).
  * `score_of`: queries times keys over both last axes is at (t, u) the sum over e of q (t, e) · k (u, e).
  * `masked_of`: the product with the named reciprocal of the scale, replaced by the named mask value where the column
    index exceeds the row index, is at (t, u) minus infinity if t < u and the quotient by the scale otherwise.
  * `softmax_of`: the softmax along the last axis at (t, u).
  * `ctx_of`: the plain product of the weights with the values, recast as [1, 256, 640], at (0, t, d).
-/
import proofs.«155885_j89575837925919_2_alg».proof.Proof.Gen.KernelIdeal.Skeleton
import proofs.«155885_j89575837925919_2_alg».proof.Proof.Spec
import proofs.«155885_j89575837925919_2_alg».proof.Proof.LibDenseRows
import proofs.«155885_j89575837925919_2_alg».proof.Proof.LibSoftmaxRows
import proofs.«155885_j89575837925919_2_alg».proof.Proof.LibPlainLayers
import proofs.«155885_j89575837925919_2_alg».proof.Proof.Consts

noncomputable section

open scoped BigOperators

namespace Cert.KernelIdeal.PayValue

open Cert.KernelIdeal Cert.KernelIdeal.Gen Idealize.ShloMosaic Idealize.ShloMosaic.ValueIdx Cert.Attn

/-! ## The three projections -/

/-- A [1, 256, 640] block recast as [256, 640], times a [640, 640] weight over both last axes, at (t, e). -/
theorem proj_apply (x : FVec Ideal S1x256x640 .bf16) (w : FVec Ideal S640x640 .bf16)
    (hx : S1x256x640.ShapeCasts S256x640) (hw : S640x640.ShapeCasts S640x640) (t : Fin 256) (e : Fin 640) :
    matmul dot_S256x640_S640x640_S256x640_1_1_0_0_n_n none (shapeCast S256x640 x hx) (shapeCast S640x640 w hw)
        (constant S256x640 .f32 0x00000000#32) (ix2 t e)
      = ∑ d : Fin 640, x (ix3 (0 : Fin 1) t d) * w (ix2 e d) := by
  have hD : dot_S256x640_S640x640_S256x640_1_1_0_0_n_n = DotDims.transposedRhs 256 640 640 := rfl
  rw [shapeCast_self w hw, hD]
  refine (Cert.DenseRows.matmulT_zero_apply none _ w t e).trans ?_
  exact Finset.sum_congr rfl fun d _ => congrArg (· * w (ix2 e d)) (shapeCast_1ab_ab_apply x hx t d)

/-! ## The dot products of queries with keys -/

/-- Queries times keys over both last axes, at (t, u), the operands' entries given by formulas. -/
theorem score_of (q k : FVec Ideal S256x640 .f32) (hlt : FTy.bits .bf16 < FTy.bits .f32) (Q K : Fin 256 → Fin 640 → EReal)
    (hq : ∀ t e, q (ix2 t e) = Q t e) (hk : ∀ u e, k (ix2 u e) = K u e) (t u : Fin 256) :
    matmul dot_S256x640_S256x640_S256x256_1_1_0_0_n_n none (truncf .bf16 q hlt) (truncf .bf16 k hlt)
        (constant S256x256 .f32 0x00000000#32) (ix2 t u)
      = ∑ e : Fin 640, Q t e * K u e := by
  have hD : dot_S256x640_S256x640_S256x256_1_1_0_0_n_n = DotDims.transposedRhs 256 640 256 := rfl
  rw [hD]
  refine (Cert.DenseRows.matmulT_zero_apply none (truncf .bf16 q hlt) (truncf .bf16 k hlt) t u).trans ?_
  exact Finset.sum_congr rfl fun e _ => congrArg₂ (· * ·) (hq t e) (hk u e)

/-! ## The causal mask -/

/-- A number below 256 as a 32-bit word reads, as a signed integer, itself. -/
theorem toInt_ofNat_small (a : ℕ) (ha : a < 256) : (BitVec.ofNat 32 a).toInt = a := by
  rw [BitVec.toInt_eq_toNat_cond, BitVec.toNat_ofNat]
  have h : a % 2 ^ 32 = a := Nat.mod_eq_of_lt (by omega)
  rw [h]
  split <;> omega

/-- The signed comparison of two numbers below 256 as 32-bit words is the comparison of the numbers. -/
theorem slt_ofNat (a b : ℕ) (ha : a < 256) (hb : b < 256) :
    (BitVec.ofNat 32 a).slt (BitVec.ofNat 32 b) = decide (a < b) := by
  rw [BitVec.slt, toInt_ofNat_small a ha, toInt_ofNat_small b hb]
  simp

/-- The scaled scores, replaced by the mask value where the column index is greater than the row index, at (t, u). -/
theorem masked_of (s : FVec Ideal S256x256 .f32) (Sc : Fin 256 → Fin 256 → EReal) (hs : ∀ t u, s (ix2 t u) = Sc t u)
    (h0 : S256x256.Iotas .tc 32 [0]) (h1 : S256x256.Iotas .tc 32 [1]) (t u : Fin 256) :
    select (cmpi .sgt (iota .tc S256x256 32 [1] h1) (iota .tc S256x256 32 [0] h0))
        (broadcast S256x256 (Named.named (F := Ideal) κ "neg_big" (φ := .f32) 0xFF333332#32))
        (mulf s (broadcast S256x256 (Named.named (F := Ideal) κ "inv_scale" (φ := .f32) 0x3D21E89B#32))) (ix2 t u)
      = if t.val < u.val then negInf else Ideal.div (Sc t u) scaleD := by
  have hc : cmpi .sgt (iota .tc S256x256 32 [1] h1) (iota .tc S256x256 32 [0] h0) (ix2 t u)
      = BitVec.ofBool (decide (t.val < u.val)) := by
    show IntOp.cmpi .sgt (iota .tc S256x256 32 [1] h1 (ix2 t u)) (iota .tc S256x256 32 [0] h0 (ix2 t u)) = _
    rw [iota_single_apply, iota_single_apply]
    show BitVec.ofBool ((BitVec.ofNat 32 t.val).slt (BitVec.ofNat 32 u.val)) = _
    rw [slt_ofNat _ _ t.isLt u.isLt]
  rw [select_apply, hc]
  by_cases h : t.val < u.val
  · rw [if_pos h, decide_eq_true h]
    exact (select_one _ _).trans (neg_big_eq.trans negInf_eq.symm)
  · rw [if_neg h, decide_eq_false h]
    refine (select_zero _ _).trans ?_
    show s (ix2 t u) * Named.named (F := Ideal) κ "inv_scale" (φ := .f32) 0x3D21E89B#32 = _
    rw [inv_scale_eq, hs]
    exact mul_inv_scale _

/-! ## The softmax along the last axis -/

/-- The softmax of a [256, 256] array along its last axis as the body spells it, at (t, u), the array's entries given
    by a formula. -/
theorem softmax_of (f : FVec Ideal S256x256 .f32) (g : Fin 256 → Fin 256 → EReal) (hf : ∀ t u, f (ix2 t u) = g t u)
    (hr : S256x256.Reduces [1] S256) (hφ : FKind.Formats .f32)
    (hmax : (0xFF800000#32 : BitVec FTy.f32.bits) = FKind.maximumf.neutral .f32 hφ)
    (hadd : (0x00000000#32 : BitVec FTy.f32.bits) = FKind.add.neutral .f32 hφ)
    (hs : S256.ShapeCasts S256x1) (hb : S256x1.Broadcasts S256x256) (t u : Fin 256) :
    divf
      (exp (subf f (broadcastTo S256x256 (shapeCast S256x1 (multiReduction .maximumf [1] S256 f 0xFF800000#32 hr hφ hmax) hs) hb)))
      (broadcastTo S256x256 (shapeCast S256x1
        (multiReduction .add [1] S256
          (exp (subf f (broadcastTo S256x256 (shapeCast S256x1 (multiReduction .maximumf [1] S256 f 0xFF800000#32 hr hφ hmax) hs) hb)))
          0x00000000#32 hr hφ hadd) hs) hb) (ix2 t u)
      = Ideal.div (Ideal.exp (g t u - (Finset.univ : Finset (Fin 256)).fold max negInf (fun k => g t k)))
          (∑ k : Fin 256, Ideal.exp (g t k - (Finset.univ : Finset (Fin 256)).fold max negInf (fun k => g t k))) := by
  refine (Cert.SoftmaxRows.softmaxRows_apply f _ hr hφ hmax hadd hs hb t u).trans ?_
  simp only [hf]
  rfl

/-! ## The attended values -/

/-- The plain product of the [256, 256] weights with the [256, 640] values, recast as [1, 256, 640], at (0, t, d), the
    operands' entries given by formulas. -/
theorem ctx_of (p : FVec Ideal S256x256 .f32) (v : FVec Ideal S256x640 .f32) (hlt : FTy.bits .bf16 < FTy.bits .f32)
    (hc : S256x640.ShapeCasts S1x256x640) (P : Fin 256 → Fin 256 → EReal)
    (V : Fin 256 → Fin 640 → EReal) (hp : ∀ t u, p (ix2 t u) = P t u) (hv : ∀ u d, v (ix2 u d) = V u d)
    (t : Fin 256) (d : Fin 640) :
    shapeCast S1x256x640 (truncf .bf16 (matmul dot_S256x256_S256x640_S256x640_1_0_0_1_n_n none (truncf .bf16 p hlt) (truncf .bf16 v hlt)
        (constant S256x640 .f32 0x00000000#32)) hlt) hc (ix3 (0 : Fin 1) t d)
      = ∑ u : Fin 256, P t u * V u d :=
  (shapeCast_ab_1ab_apply _ hc 0 t d).trans
    ((Cert.PlainLayers.plainMM_of_eq _ rfl none (truncf .bf16 p hlt) (truncf .bf16 v hlt) t d).trans
      (Finset.sum_congr rfl fun u _ => congrArg₂ (· * ·) (hp t u) (hv u d)))

/-! ## The whole body -/

/-- The attention body at (0, t, d): the attended value of the specification. -/
theorem pay0_apply (x0 : Vec Ideal S1x256x640 .bf16) (w1 w2 w3 : Vec Ideal S640x640 .bf16) (t : Fin 256) (d : Fin 640) :
    k0_pay1 (F := Ideal) x0 w1 w2 w3 (ix3 (0 : Fin 1) t d)
      = ctx (fun t d => x0 (ix3 (0 : Fin 1) t d)) (fun e d => w1 (ix2 e d)) (fun e d => w2 (ix2 e d)) (fun e d => w3 (ix2 e d)) t d := by
  unfold k0_pay1
  refine ctx_of _ _ _ _
    (attn (fun t d => x0 (ix3 (0 : Fin 1) t d)) (fun e d => w1 (ix2 e d)) (fun e d => w2 (ix2 e d)))
    (proj (fun t d => x0 (ix3 (0 : Fin 1) t d)) (fun e d => w3 (ix2 e d))) ?_ ?_ t d
  · intro t u
    refine softmax_of _ (masked (fun t d => x0 (ix3 (0 : Fin 1) t d)) (fun e d => w1 (ix2 e d)) (fun e d => w2 (ix2 e d)))
      ?_ _ _ _ _ _ _ t u
    intro t u
    refine masked_of _ (score (fun t d => x0 (ix3 (0 : Fin 1) t d)) (fun e d => w1 (ix2 e d)) (fun e d => w2 (ix2 e d)))
      ?_ _ _ t u
    intro t u
    refine score_of _ _ _ (proj (fun t d => x0 (ix3 (0 : Fin 1) t d)) (fun e d => w1 (ix2 e d)))
      (proj (fun t d => x0 (ix3 (0 : Fin 1) t d)) (fun e d => w2 (ix2 e d))) ?_ ?_ t u
    · intro t e
      exact proj_apply x0 w1 _ _ t e
    · intro u e
      exact proj_apply x0 w2 _ _ u e
  · intro u d
    exact proj_apply x0 w3 _ _ u d

end Cert.KernelIdeal.PayValue

end
-- ==== Proof.Blocks0.lean ====
/-
  The attention region, from blocks to the whole array.

  The region walks the 16 sequences. At sequence b it reads the [1, 256, 640] block of the embedded input and the three
  whole [640, 640] weight arrays, and writes back the [1, 256, 640] block of attended values. Every block written is a
  block of ONE whole-array function of the four input arrays, and the 16 blocks tile the output; so the output array
  ends holding that function.
-/
import proofs.«155885_j89575837925919_2_alg».proof.Proof.Gen.KernelIdeal.Frame
import proofs.«155885_j89575837925919_2_alg».proof.Proof.Spec
import proofs.«155885_j89575837925919_2_alg».proof.Proof.Pay0
import Idealize.ShloMosaic.Lib.ValueIdx
import Idealize.ShloMosaic.Lib.Pipeline.Value

set_option maxRecDepth 16384

noncomputable section

open scoped BigOperators

namespace Cert.KernelIdeal.AttnBlocks

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.KernelIdeal.PayValue

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Attention over whole arrays: entry (b, t, d) is the attended value of sequence b at position t, feature d. -/
def G0 (X : S16x256x640.Idx → EReal) (Wq Wk Wv : S640x640.Idx → EReal) : S16x256x640.Idx → EReal :=
  fun i => Cert.Attn.ctx (fun t d => X (ix3 (⟨(i 0).val, (i 0).isLt⟩ : Fin 16) t d))
    (fun e d => Wq (ix2 e d)) (fun e d => Wk (ix2 e d)) (fun e d => Wv (ix2 e d))
    (⟨(i 1).val, (i 1).isLt⟩ : Fin 256) (⟨(i 2).val, (i 2).isLt⟩ : Fin 640)

theorem ctx_congr {x x' : Fin 256 → Fin 640 → EReal} {wq wq' wk wk' wv wv' : Fin 640 → Fin 640 → EReal}
    {t t' : Fin 256} {d d' : Fin 640} (hx : x = x') (hq : wq = wq') (hk : wk = wk') (hv : wv = wv') (ht : t = t') (hd : d = d') :
    Cert.Attn.ctx x wq wk wv t d = Cert.Attn.ctx x' wq' wk' wv' t' d' := by
  subst hx hq hk hv ht hd; rfl

/-- One sequence: from its block and the three weight arrays, entry (0, t, d) of what the body stores. -/
theorem out0_apply (x0 : Vec Ideal S1x256x640 .bf16) (x1 x2 x3 : Vec Ideal S640x640 .bf16) (t : Fin 256) (d : Fin 640) :
    out0_4 (F := Ideal) x0 x1 x2 x3 (ix3 (0 : Fin 1) t d)
      = Cert.Attn.ctx (fun t d => x0 (ix3 (0 : Fin 1) t d)) (fun e d => x1 (ix2 e d)) (fun e d => x2 (ix2 e d)) (fun e d => x3 (ix2 e d)) t d := by
  unfold out0_4
  rw [View.canon_unit_zero hz3]
  simp only [View.ld_unit_zero (S := S1x256x640) hz3, View.ld_unit_zero (S := S640x640) hz2]
  exact pay0_apply x0 x1 x2 x3 t d

/-- Where each window's block sits at a grid point, decided over the 16 points: the input and the output move with
    the sequence, the weights stay. -/
theorem idx_facts0 : ∀ t : Fin cfg0.N,
    win0_0.index t (0 : Fin 3) = t.val ∧ win0_0.index t (1 : Fin 3) = 0 ∧ win0_0.index t (2 : Fin 3) = 0
    ∧ win0_4.index t (0 : Fin 3) = t.val ∧ win0_4.index t (1 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What grid point t writes back is block t of the whole-array attention of the arrays as the region finds them. -/
theorem flushed0 (c : Dev nD) (t : Fin cfg0.N) :
    (dat0 V c).flushed 4 t
      = ((cfg0.win 4).blk t).view.read (Elt Ideal) (G0 (V c main_v10) (V c main_v11) (V c main_v12) (V c main_v13)) := by
  show (cfg0.win 4).cut (grid0.coords t) ((dat0 V c).after 4 t) = _
  rw [after0_4]
  obtain ⟨a0, a1, a2, o0, o1, o2, q0, q1, k0, k1, v0, v1⟩ := idx_facts0 t
  funext y
  have hy0 : (y 0).val < 1 := (y 0).isLt
  have hy1 : (y 1).val < 256 := (y 1).isLt
  have hy2 : (y 2).val < 640 := (y 2).isLt
  have hxy : (cfg0.win 4).xinj (grid0.coords t) y = ix3 (0 : Fin 1) (⟨(y 1).val, hy1⟩ : Fin 256) (⟨(y 2).val, hy2⟩ : Fin 640) :=
    funext fun a => Fin.ext (by
      match a with
      | ⟨0, _⟩ => show (y 0).val = 0; omega
      | ⟨1, _⟩ => rfl
      | ⟨2, _⟩ => rfl)
  show out0_4 (iblk0 V c 0 t) (iblk0 V c 1 t) (iblk0 V c 2 t) (iblk0 V c 3 t) ((cfg0.win 4).xinj (grid0.coords t) y) = _
  rw [hxy]
  refine (out0_apply _ _ _ _ _ _).trans ?_
  show _ = G0 _ _ _ _ (((cfg0.win 4).blk t).view.emb y)
  unfold G0
  refine ctx_congr ?_ ?_ ?_ ?_ ?_ ?_
  · funext t' d'
    show V c main_v10 (((cfg0.win 0).blk t).view.emb (ix3 (0 : Fin 1) t' d')) = V c main_v10 _
    refine congrArg _ (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 256 + 1 * t'.val = t'.val; omega
    | ⟨2, _⟩ => show win0_0.index t (2 : Fin 3) * 640 + 1 * d'.val = d'.val; omega
  · funext e' d'
    show V c main_v11 (((cfg0.win 1).blk t).view.emb (ix2 e' d')) = V c main_v11 _
    refine congrArg _ (funext fun a => Fin.ext ?_)
    match a with
    | ⟨0, _⟩ => show win0_1.index t (0 : Fin 2) * 640 + 1 * e'.val = e'.val; omega
    | ⟨1, _⟩ => show win0_1.index t (1 : Fin 2) * 640 + 1 * d'.val = d'.val; omega
  · funext e' d'
    show V c main_v12 (((cfg0.win 2).blk t).view.emb (ix2 e' d')) = V c main_v12 _
    refine congrArg _ (funext fun a => Fin.ext ?_)
    match a with
    | ⟨0, _⟩ => show win0_2.index t (0 : Fin 2) * 640 + 1 * e'.val = e'.val; omega
    | ⟨1, _⟩ => show win0_2.index t (1 : Fin 2) * 640 + 1 * d'.val = d'.val; omega
  · funext e' d'
    show V c main_v13 (((cfg0.win 3).blk t).view.emb (ix2 e' d')) = V c main_v13 _
    refine congrArg _ (funext fun a => Fin.ext ?_)
    match a with
    | ⟨0, _⟩ => show win0_3.index t (0 : Fin 2) * 640 + 1 * e'.val = e'.val; omega
    | ⟨1, _⟩ => show win0_3.index t (1 : Fin 2) * 640 + 1 * d'.val = d'.val; omega
  · exact Fin.ext (by show (y 1).val = win0_4.index t (1 : Fin 3) * 256 + 1 * (y 1).val; omega)
  · exact Fin.ext (by show (y 2).val = win0_4.index t (2 : Fin 3) * 640 + 1 * (y 2).val; omega)

/-- An index of the array is in point t's block iff each coordinate is in the block's range on its axis. -/
theorem mem_blk0 (t : Fin cfg0.N) (i : S16x256x640.Idx) :
    i ∈ ((cfg0.win 4).blk t).view.set ↔ ∀ a : Fin 3, win0_4.index t a * S1x256x640.size a ≤ (i a).val ∧ (i a).val < win0_4.index t a * S1x256x640.size a + S1x256x640.size a := by
  show i ∈ ((View.whole main_v14).slice (win0_4.rect t)).set ↔ _
  rw [View.set_slice_whole, Rect.mem_set_unit]
  exact Iff.rfl

/-- Every index of the output is in the block of the grid point of its sequence. -/
theorem cover0 (i : S16x256x640.Idx) : ∃ t : Fin cfg0.N, (cfg0.win 4).flush t = true ∧ i ∈ ((cfg0.win 4).blk t).view.set := by
  have hi0 : (i 0).val < 16 := (i 0).isLt
  have hi1 : (i 1).val < 256 := (i 1).isLt
  have hi2 : (i 2).val < 640 := (i 2).isLt
  have hi0' : (i 0).val < cfg0.N := hi0
  refine ⟨(⟨(i 0).val, hi0'⟩ : Fin cfg0.N), flush0_4 _, ?_⟩
  obtain ⟨a0, a1, a2, o0, o1, o2, -⟩ := idx_facts0 (⟨(i 0).val, hi0'⟩ : Fin cfg0.N)
  rw [mem_blk0]
  intro a
  match a with
  | ⟨0, _⟩ => show win0_4.index _ (0 : Fin 3) * 1 ≤ (i 0).val ∧ (i 0).val < win0_4.index _ (0 : Fin 3) * 1 + 1; rw [o0]; show (i 0).val * 1 ≤ (i 0).val ∧ (i 0).val < (i 0).val * 1 + 1; omega
  | ⟨1, _⟩ => show win0_4.index _ (1 : Fin 3) * 256 ≤ (i 1).val ∧ (i 1).val < win0_4.index _ (1 : Fin 3) * 256 + 256; rw [o1]; omega
  | ⟨2, _⟩ => show win0_4.index _ (2 : Fin 3) * 640 ≤ (i 2).val ∧ (i 2).val < win0_4.index _ (2 : Fin 3) * 640 + 640; rw [o2]; omega

/-- The attention region's output array after its run, whole. -/
theorem final0 (c : Dev nD) :
    (dat0 V c).arrAt 4 cfg0.N = G0 (V c main_v10) (V c main_v11) (V c main_v12) (V c main_v13) :=
  (dat0 V c).arrAt_eq_of_cover 4 _ (fun t _ => flushed0 V c t) cover0

end Cert.KernelIdeal.AttnBlocks

end
-- ==== Proof.Pay1.lean ====
/-
  The body of the output-projection kernel, read at one entry of its result at the exact (extended-real) instance:
  the product of a [1024, 640] block of rows with a [2048, 640] block of weight rows over their last axes, plus the
  [1, 2048] bias row repeated down the rows, is at (r, j) the sum over d of a (r, d) · w (j, d), plus the bias at j.
-/
import proofs.«155885_j89575837925919_2_alg».proof.Proof.Gen.KernelIdeal.Skeleton
import proofs.«155885_j89575837925919_2_alg».proof.Proof.Spec
import proofs.«155885_j89575837925919_2_alg».proof.Proof.LibDenseRows

noncomputable section

open scoped BigOperators

namespace Cert.KernelIdeal.PayValue

open Cert.KernelIdeal Cert.KernelIdeal.Gen Idealize.ShloMosaic Idealize.ShloMosaic.ValueIdx Cert.Attn

/-- The printed record of dimension numbers of the output projection is the one contracting both last axes. -/
theorem dot1_eq : dot_S1024x640_S2048x640_S1024x2048_1_1_0_0_n_n = DotDims.transposedRhs 1024 640 2048 := rfl

/-- The output-projection body at (r, j): ∑_d a (r, d) · w (j, d) + bias j. -/
theorem pay1_apply (a : Vec Ideal S1024x640 .bf16) (w : Vec Ideal S2048x640 .bf16) (bv : Vec Ideal S1x2048 .f32) (r : Fin 1024) (j : Fin 2048) :
    k1_pay1 (F := Ideal) a w bv (ix2 r j) = (∑ d : Fin 640, a (ix2 r d) * w (ix2 j d)) + bv (ix2 (0 : Fin 1) j) := by
  unfold k1_pay1
  refine congrArg₂ (· + ·) ?_ ?_
  · rw [shapeCast_self, shapeCast_self, dot1_eq]
    exact Cert.DenseRows.matmulT_zero_apply none a w r j
  · refine (broadcastTo_1b_ab_apply _ _ r j).trans ?_
    exact congrFun (shapeCast_self bv _) _

end Cert.KernelIdeal.PayValue

end
-- ==== Proof.Blocks1.lean ====
/-
  The output-projection region, from tiles to the whole array.

  The region walks a grid of 25 column tiles by 4 row tiles. At a point it reads a [1024, 640] tile of the
  activations, a [2048, 640] tile of the (zero-padded) weights and a [1, 2048] tile of the (zero-padded) bias, and
  writes back the [1024, 2048] tile of rows-times-weights-plus-bias — cut, on the last column tile, to the 1105
  columns that lie inside the [4096, 50257] result. Every tile written is a tile of ONE whole-array function of the
  three input arrays, and the tiles cover the result; so the result array ends holding that function.
-/
import proofs.«155885_j89575837925919_2_alg».proof.Proof.Gen.KernelIdeal.Frame
import proofs.«155885_j89575837925919_2_alg».proof.Proof.Spec
import proofs.«155885_j89575837925919_2_alg».proof.Proof.Pay1
import Idealize.ShloMosaic.Lib.ValueIdx
import Idealize.ShloMosaic.Lib.Pipeline.Value

set_option maxRecDepth 16384

noncomputable section

open scoped BigOperators

namespace Cert.KernelIdeal.OutProj

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.KernelIdeal.PayValue

variable (V : (c : Dev nD) → (b : Ref sig .tc) → Buf (Elt Ideal) ((c : Thread nD τ).loc b))

theorem hz2 : (![0, 0] : Fin 2 → Nat) = fun _ => 0 := funext fun a => by fin_cases a <;> rfl

/-- Rows of activations times rows of (padded) weights plus the (padded) bias row, over whole arrays: entry (r, n) is
    the sum over the 640 features of activation (r, d) times weight (n, d), plus bias (0, n). -/
def G1 (A : S4096x640.Idx → EReal) (Wp : S51200x640.Idx → EReal) (Bp : S1x51200.Idx → EReal) : S4096x50257.Idx → EReal :=
  fun i => (∑ d : Fin 640, A (ix2 (⟨(i 0).val, (i 0).isLt⟩ : Fin 4096) d)
        * Wp (ix2 (⟨(i 1).val, Nat.lt_trans (i 1).isLt (by decide)⟩ : Fin 51200) d))
      + Bp (ix2 (0 : Fin 1) (⟨(i 1).val, Nat.lt_trans (i 1).isLt (by decide)⟩ : Fin 51200))

/-- One tile of the product: from a tile's three input blocks, entry (r, j) of what the body stores. -/
theorem out1_apply (x0 : Vec Ideal S1024x640 .bf16) (x1 : Vec Ideal S2048x640 .bf16) (x2 : Vec Ideal S1x2048 .f32)
    (r : Fin 1024) (j : Fin 2048) :
    out1_3 (F := Ideal) x0 x1 x2 (ix2 r j) = (∑ d : Fin 640, x0 (ix2 r d) * x1 (ix2 j d)) + x2 (ix2 (0 : Fin 1) j) := by
  unfold out1_3
  rw [View.canon_unit_zero hz2]
  simp only [View.ld_unit_zero (S := S1024x640) hz2, View.ld_unit_zero (S := S2048x640) hz2, View.ld_unit_zero (S := S1x2048) hz2]
  exact pay1_apply x0 x1 x2 r j

/-- Where each window's block sits at a grid point, decided over the 100 points: the activations move with the
    output's row tile, the weights and the bias with its column tile; the last column tile is cut at the array's end. -/
theorem idx_facts1 : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 3 ∧ win1_3.index t (1 : Fin 2) ≤ 24
    ∧ win1_3.xsize (grid1.coords t) (0 : Fin 2) = 1024
    ∧ win1_3.xsize (grid1.coords t) (1 : Fin 2) = (if win1_3.index t (1 : Fin 2) = 24 then 1105 else 2048) :=
  (by decide +kernel : ∀ t : Fin grid1.N, _)

/-- Every tile of the output is some grid point's. -/
theorem idx_onto1 : ∀ (q0 : Fin 4) (q1 : Fin 25), ∃ t : Fin cfg1.N, win1_3.index t = ![q0.val, q1.val] :=
  (by decide +kernel : ∀ (q0 : Fin 4) (q1 : Fin 25), ∃ t : Fin grid1.N, win1_3.index t = ![q0.val, q1.val])

/-- What grid point t writes back is its (possibly cut) block of the whole-array product of the arrays as the
    region finds them. -/
theorem flushed1 (c : Dev nD) (t : Fin cfg1.N) :
    (dat1 V c).flushed 3 t
      = ((cfg1.win 3).blk t).view.read (Elt Ideal) (G1 (V c main_v15) (V c main_v17) (V c main_v19)) := by
  show (cfg1.win 3).cut (grid1.coords t) ((dat1 V c).after 3 t) = _
  rw [after1_3]
  obtain ⟨e0, e1, e2, e3, e4, e5, b0, b1, s0, s1⟩ := idx_facts1 t
  funext y
  have hy0 : (y 0).val < 1024 := lt_of_lt_of_le (y 0).isLt (win1_3.xsize_le (grid1.coords t) 0)
  have hy1 : (y 1).val < 2048 := lt_of_lt_of_le (y 1).isLt (win1_3.xsize_le (grid1.coords t) 1)
  have hxy : (cfg1.win 3).xinj (grid1.coords t) y = ix2 (⟨(y 0).val, hy0⟩ : Fin 1024) (⟨(y 1).val, hy1⟩ : Fin 2048) :=
    funext fun a => Fin.ext (by
      match a with
      | ⟨0, _⟩ => rfl
      | ⟨1, _⟩ => rfl)
  show out1_3 (iblk1 V c 0 t) (iblk1 V c 1 t) (iblk1 V c 2 t) ((cfg1.win 3).xinj (grid1.coords t) y) = _
  rw [hxy]
  refine (out1_apply _ _ _ _ _).trans ?_
  show _ = G1 _ _ _ (((cfg1.win 3).blk t).view.emb y)
  unfold G1
  refine congrArg₂ (· + ·) (Finset.sum_congr rfl fun d _ => congrArg₂ (· * ·) ?_ ?_) ?_
  · show V c main_v15 (((cfg1.win 0).blk t).view.emb (ix2 (⟨(y 0).val, hy0⟩ : Fin 1024) d)) = V c main_v15 _
    refine congrArg _ (funext fun a => Fin.ext ?_)
    match a with
    | ⟨0, _⟩ => show win1_0.index t (0 : Fin 2) * 1024 + 1 * (y 0).val = win1_3.index t (0 : Fin 2) * 1024 + 1 * (y 0).val; omega
    | ⟨1, _⟩ => show win1_0.index t (1 : Fin 2) * 640 + 1 * d.val = d.val; omega
  · show V c main_v17 (((cfg1.win 1).blk t).view.emb (ix2 (⟨(y 1).val, hy1⟩ : Fin 2048) d)) = V c main_v17 _
    refine congrArg _ (funext fun a => Fin.ext ?_)
    match a with
    | ⟨0, _⟩ => show win1_1.index t (0 : Fin 2) * 2048 + 1 * (y 1).val = win1_3.index t (1 : Fin 2) * 2048 + 1 * (y 1).val; omega
    | ⟨1, _⟩ => show win1_1.index t (1 : Fin 2) * 640 + 1 * d.val = d.val; omega
  · show V c main_v19 (((cfg1.win 2).blk t).view.emb (ix2 (0 : Fin 1) (⟨(y 1).val, hy1⟩ : Fin 2048))) = V c main_v19 _
    refine congrArg _ (funext fun a => Fin.ext ?_)
    match a with
    | ⟨0, _⟩ => show win1_2.index t (0 : Fin 2) * 1 + 1 * 0 = 0; omega
    | ⟨1, _⟩ => show win1_2.index t (1 : Fin 2) * 2048 + 1 * (y 1).val = win1_3.index t (1 : Fin 2) * 2048 + 1 * (y 1).val; omega

/-- An index of the array is in point t's block iff each coordinate is in the block's (cut) range on its axis. -/
theorem mem_blk1 (t : Fin cfg1.N) (i : S4096x50257.Idx) :
    i ∈ ((cfg1.win 3).blk t).view.set ↔ ∀ a : Fin 2, win1_3.index t a * S1024x2048.size a ≤ (i a).val ∧ (i a).val < win1_3.index t a * S1024x2048.size a + win1_3.xsize (grid1.coords t) a := by
  show i ∈ ((View.whole main_v20).slice (win1_3.rect t)).set ↔ _
  rw [View.set_slice_whole, Rect.mem_set_unit]
  exact Iff.rfl

/-- Every index of the output lies in the tile of its row tile and column tile; the last column tile holds the
    1105 columns from 49152 on. -/
theorem cover1 (i : S4096x50257.Idx) : ∃ t : Fin cfg1.N, (cfg1.win 3).flush t = true ∧ i ∈ ((cfg1.win 3).blk t).view.set := by
  have hi0 : (i 0).val < 4096 := (i 0).isLt
  have hi1 : (i 1).val < 50257 := (i 1).isLt
  obtain ⟨t, ht⟩ := idx_onto1 ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  obtain ⟨-, -, -, -, -, -, -, -, s0, s1⟩ := idx_facts1 t
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + win1_3.xsize (grid1.coords t) (0 : Fin 2)
    rw [s0]; omega
  | ⟨1, _⟩ =>
    show win1_3.index t (1 : Fin 2) * 2048 ≤ (i 1).val ∧ (i 1).val < win1_3.index t (1 : Fin 2) * 2048 + win1_3.xsize (grid1.coords t) (1 : Fin 2)
    rw [s1]; split <;> omega

/-- The projection region's output array after its run, whole. -/
theorem final1 (c : Dev nD) :
    (dat1 V c).arrAt 3 cfg1.N = G1 (V c main_v15) (V c main_v17) (V c main_v19) :=
  (dat1 V c).arrAt_eq_of_cover 3 _ (fun t _ => flushed1 V c t) cover1

end Cert.KernelIdeal.OutProj

end
-- ==== Proof.LibLeadFold.lean ====
/-
  General lemmas for kernels that fold the two leading axes of an [a, b, n] array into one of length m = a · b before a
  matrix product and unfold them afterwards, that take a maximum along the last axis of an array, and that repeat a
  vector of length n over an [a, b, n] array; each read at one index.

  * `shapeCast_abn_mn_apply`: an [a, b, n] array recast as [m, n] reads, at (p · b + q, k), the array at (p, q, k).
  * `shapeCast_mn_abn_apply`: an [m, n] array recast as [a, b, n] reads, at (p, q, k), the array at (p · b + q, k).
  * `shapeCast_abpq_mpq_apply`: an [a, b, p, q] array recast as [m, p, q] reads, at (u · b + v, i, k), the array at (u, v, i, k).
  * `shapeCast_mpq_abpq_apply`: an [m, p, q] array recast as [a, b, p, q] reads, at (u, v, i, k), the array at (u · b + v, i, k).
  * `lastMax3_apply`: at the exact (extended-real) instance, the maximum of an [a, g, n] array along its last axis is,
    at (p, gi), the fold of max from the accumulator's value over k of the array at (p, gi, k).
  * `hostLastMax4_apply`: the host's one-operand reduce with a maximum body along the last axis of an [a, b, c, n]
    array is, at (p, q, r), the fold of max from the initial value over k of the array at (p, q, r, k).
  * `shapeCast_n_11n_apply`: a vector of length n recast as [1, 1, n] reads, at (u, v, k), the vector at k.
  * `broadcastTo_11n_abn_apply`: a [1, 1, n] array repeated over [a, b, n] reads, at (p, q, k), the array at (0, 0, k).
-/
import Idealize.ShloMosaic.Lib.ValueIdx
import Idealize.ShloMosaic.Lib.Pipeline.Value
import Idealize.ShloMosaic.PureOps.Ideal.Laws

noncomputable section

open scoped BigOperators

namespace Cert.LeadFold

open Idealize.ShloMosaic Idealize.ShloMosaic.ValueIdx

variable {α : Type} {a b c g m n : ℕ}

/-- An [a, b, n] array recast as [m, n] (m = a · b): row p · b + q, column k holds the entry at (p, q, k), the two
    indices having one row-major position. -/
theorem shapeCast_abn_mn_apply (x : (⟨3, ![a, b, n]⟩ : Shape).Idx → α) (h : (⟨3, ![a, b, n]⟩ : Shape).ShapeCasts ⟨2, ![m, n]⟩)
    (r : Fin m) (k : Fin n) (p : Fin a) (q : Fin b) (hr : r.val = p.val * b + q.val) :
    shapeCast ⟨2, ![m, n]⟩ x h (ix2 r k) = x (ix3 p q k) :=
  shapeCast_apply x h _ _ (by
    rw [Shape.rowMajor_val_three, Shape.rowMajor_val_two]
    show (p.val * b + q.val) * n + k.val = r.val * n + k.val
    rw [hr])

/-- An [m, n] array recast as [a, b, n] (m = a · b): position (p, q, k) holds the entry at row p · b + q, column k. -/
theorem shapeCast_mn_abn_apply (x : (⟨2, ![m, n]⟩ : Shape).Idx → α) (h : (⟨2, ![m, n]⟩ : Shape).ShapeCasts ⟨3, ![a, b, n]⟩)
    (p : Fin a) (q : Fin b) (k : Fin n) (r : Fin m) (hr : r.val = p.val * b + q.val) :
    shapeCast ⟨3, ![a, b, n]⟩ x h (ix3 p q k) = x (ix2 r k) :=
  shapeCast_apply x h _ _ (by
    rw [Shape.rowMajor_val_two, Shape.rowMajor_val_three]
    show r.val * n + k.val = (p.val * b + q.val) * n + k.val
    rw [hr])

/-- An [a, b, p, q] array recast as [m, p, q] (m = a · b): position (u · b + v, i, k) holds the entry at (u, v, i, k). -/
theorem shapeCast_abpq_mpq_apply {p q : ℕ} (x : (⟨4, ![a, b, p, q]⟩ : Shape).Idx → α)
    (h : (⟨4, ![a, b, p, q]⟩ : Shape).ShapeCasts ⟨3, ![m, p, q]⟩)
    (r : Fin m) (i : Fin p) (k : Fin q) (u : Fin a) (v : Fin b) (hr : r.val = u.val * b + v.val) :
    shapeCast ⟨3, ![m, p, q]⟩ x h (ix3 r i k) = x (ix4 u v i k) :=
  shapeCast_apply x h _ _ (by
    rw [Shape.rowMajor_val_four, Shape.rowMajor_val_three]
    show ((u.val * b + v.val) * p + i.val) * q + k.val = (r.val * p + i.val) * q + k.val
    rw [hr])

/-- An [m, p, q] array recast as [a, b, p, q] (m = a · b): position (u, v, i, k) holds the entry at (u · b + v, i, k). -/
theorem shapeCast_mpq_abpq_apply {p q : ℕ} (x : (⟨3, ![m, p, q]⟩ : Shape).Idx → α)
    (h : (⟨3, ![m, p, q]⟩ : Shape).ShapeCasts ⟨4, ![a, b, p, q]⟩)
    (u : Fin a) (v : Fin b) (i : Fin p) (k : Fin q) (r : Fin m) (hr : r.val = u.val * b + v.val) :
    shapeCast ⟨4, ![a, b, p, q]⟩ x h (ix4 u v i k) = x (ix3 r i k) :=
  shapeCast_apply x h _ _ (by
    rw [Shape.rowMajor_val_three, Shape.rowMajor_val_four]
    show (r.val * p + i.val) * q + k.val = ((u.val * b + v.val) * p + i.val) * q + k.val
    rw [hr])

/-- The maximum of an [a, g, n] array along its last axis, at (p, gi): the fold of max, from the accumulator's value,
    over k of the array at (p, gi, k). -/
theorem lastMax3_apply {φ : FTy} (src : FVec Ideal ⟨3, ![a, g, n]⟩ φ) (acc : BitVec φ.bits)
    (h : (⟨3, ![a, g, n]⟩ : Shape).Reduces [2] ⟨2, ![a, g]⟩) (hφ : FKind.Formats φ) (hacc : acc = FKind.maximumf.neutral φ hφ)
    (p : Fin a) (gi : Fin g) :
    multiReduction .maximumf [2] ⟨2, ![a, g]⟩ src acc h hφ hacc (ix2 p gi)
      = (Finset.univ : Finset (Fin n)).fold max (FloatOps.ofBits φ acc) (fun k => src (ix3 p gi k)) := by
  refine (Ideal.multiReduction_maximumf_single src acc h hφ hacc (ix2 p gi)).trans ?_
  refine congrArg (fun f : Fin n → Ideal φ => (Finset.univ : Finset (Fin n)).fold max (FloatOps.ofBits φ acc) f)
    (funext fun k => congrArg src (funext fun d => Fin.ext ?_))
  rw [h.lift_val]
  match d with
  | ⟨0, _⟩ => rfl
  | ⟨1, _⟩ => rfl
  | ⟨2, _⟩ => rfl

/-- The host's reduce with a maximum body along the last axis of an [a, b, c, n] array, at (p, q, r): the fold of max,
    from the initial value, over k of the array at (p, q, r, k). -/
theorem hostLastMax4_apply {φ : FTy} {u : Shape} (x : FVec Ideal ⟨4, ![a, b, c, n]⟩ φ) (init : FVec Ideal u φ)
    (h' : (⟨4, ![a, b, c, n]⟩ : Shape).ReducesTo [3] ⟨3, ![a, b, c]⟩) (h : (⟨4, ![a, b, c, n]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin n)).fold max (init (Shape.Idx.first hu)) (fun k => x (ix4 p q r k)) := by
  rw [Host.reduce_eq_fold_single FloatOps.maximumf x init h' h hu]
  refine congrArg (fun f : Fin n → Ideal φ => (Finset.univ : Finset (Fin n)).fold max (init (Shape.Idx.first hu)) f)
    (funext fun k => congrArg x (funext fun d => Fin.ext ?_))
  rw [h.lift_val]
  match d with
  | ⟨0, _⟩ => rfl
  | ⟨1, _⟩ => rfl
  | ⟨2, _⟩ => rfl
  | ⟨3, _⟩ => rfl

/-- A vector of length n recast as [1, 1, n] reads, at (u, v, k), the vector at k, whatever the unit coordinates. -/
theorem shapeCast_n_11n_apply (x : (⟨1, ![n]⟩ : Shape).Idx → α) (h : (⟨1, ![n]⟩ : Shape).ShapeCasts ⟨3, ![1, 1, n]⟩)
    (u v : Fin 1) (k : Fin n) : shapeCast ⟨3, ![1, 1, n]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * n + k.val
    simp [hu, hv])

/-- A [1, 1, n] array repeated over [a, b, n] reads, at (p, q, k), the array at (0, 0, k). -/
theorem broadcastTo_11n_abn_apply (x : (⟨3, ![1, 1, n]⟩ : Shape).Idx → α) (h : (⟨3, ![1, 1, n]⟩ : Shape).Broadcasts ⟨3, ![a, b, n]⟩)
    (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

end Cert.LeadFold

end
-- ==== Proof.Glue.lean ====
/-
  The host operations between the launch and the result, read one at a time.

  Before the attention region the host looks up the embedding rows, adds the position rows and changes formats (the
  identity on extended reals); between the regions it re-lays the [16, 256, 640] attention output as [4096, 640] and
  appends 943 zero rows to the output weights and 943 zeros to the output bias; after the projection region it
  re-lays the [4096, 50257] result as [16, 256, 50257]. Each is stated as a whole array and then at an index.
-/
import proofs.«155885_j89575837925919_2_alg».proof.Proof.Gen.KernelIdeal.Frame
import proofs.«155885_j89575837925919_2_alg».proof.Proof.LibLeadFold
import Idealize.ShloMosaic.Lib.StableHlo.Run
import Idealize.ShloMosaic.Lib.KernelVsHost
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Glue

open Cert.KernelIdeal Cert.KernelIdeal.Gen
open Idealize.ShloMosaic Idealize.ShloMosaic.ValueIdx Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The host operations around the regions, as whole arrays -/

/-- The program's result is the projection region's [4096, 50257] output re-laid as [16, 256, 50257]. -/
theorem w9_v21 : (W9 m ρ c (Proc.devRef .tc main_v21) : S16x256x50257.Idx → EReal)
    = shapeCast S16x256x50257 (W8 m ρ c (Proc.devRef .tc main_v20) : S4096x50257.Idx → EReal) shapeCasts_S4096x50257_S16x256x50257 := by
  dsimp only [W9, hostOps2]; after_results; rfl

/-- The projection's activations are the attention region's [16, 256, 640] output re-laid as [4096, 640]. -/
theorem v7_v15 : (V7 m ρ c main_v15 : S4096x640.Idx → EReal)
    = shapeCast S4096x640 (W2 m ρ c (Proc.devRef .tc main_v14) : S16x256x640.Idx → EReal) shapeCasts_S16x256x640_S4096x640 := by
  dsimp only [V7, W7, W6, W5, W4, W3, hostOps1_4, hostOps1_3, hostOps1_2, hostOps1_1, hostOps1]; after_results; rfl

/-- The projection's weights are the output weights with 943 zero rows appended. -/
theorem v7_v17 : (V7 m ρ c main_v17 : S51200x640.Idx → EReal)
    = pad S51200x640 ![0, 0] ![943, 0] ![0, 0] (truncf .bf16 (m ((c : Thread nD τ).loc main_arg6) : S50257x640.Idx → EReal) bitsLt_bf16_f32)
        (sitofp (F := Ideal) .bf16 (constantI S_ 32 0#32)) pads_S50257x640_S51200x640_09430_000 h_S_ := by
  dsimp only [V7, W7, W6, W5, W4, W3, hostOps1_4, hostOps1_3, hostOps1_2, hostOps1_1, hostOps1]; after_results
  rw [W2_of_ne m ρ c main_arg6 (by decide)]
  dsimp only [W1, hostOps0]; after_results; rfl

/-- The projection's bias row is the output bias with 943 zeros appended, as one row. -/
theorem v7_v19 : (V7 m ρ c main_v19 : S1x51200.Idx → EReal)
    = shapeCast S1x51200 (pad S51200 ![0] ![943] ![0] (m ((c : Thread nD τ).loc main_arg7) : S50257.Idx → EReal)
        (sitofp (F := Ideal) .f32 (constantI S_ 32 0#32)) pads_S50257_S51200_09430 h_S_) shapeCasts_S51200_S1x51200 := by
  dsimp only [V7, W7, W6, W5, W4, W3, hostOps1_4, hostOps1_3, hostOps1_2, hostOps1_1, hostOps1]; after_results
  rw [W2_of_ne m ρ c main_arg7 (by decide)]
  dsimp only [W1, hostOps0]; after_results; rfl

/-- The attention region's three weight arrays are the arguments (a change of format is the identity). -/
theorem v1_v11 : (V1 m ρ c main_v11 : S640x640.Idx → EReal) = m ((c : Thread nD τ).loc main_arg3) := by
  dsimp only [V1, W1, hostOps0]; after_results; rfl
theorem v1_v12 : (V1 m ρ c main_v12 : S640x640.Idx → EReal) = m ((c : Thread nD τ).loc main_arg4) := by
  dsimp only [V1, W1, hostOps0]; after_results; rfl
theorem v1_v13 : (V1 m ρ c main_v13 : S640x640.Idx → EReal) = m ((c : Thread nD τ).loc main_arg5) := by
  dsimp only [V1, W1, hostOps0]; after_results; rfl

/-- The attention region's input: the embedding rows looked up at the token ids plus the position rows. -/
theorem v1_v10 : (V1 m ρ c main_v10 : S16x256x640.Idx → EReal)
    = truncf .bf16 (addf (F := Ideal) (φ := .f32)
        (Host.gather gather_S50257x640_S16x256x1_S16x256x640_2_0_n_n_0_2_1640 (m ((c : Thread nD τ).loc main_arg1))
          (broadcastInDim S16x256x1 ![0, 1] bcast_S16x256_S16x256x1_0_1
            (select
              (cmpi CmpIPredicate.slt (m ((c : Thread nD τ).loc main_arg0))
                (broadcastInDim S16x256 ![] bcast_S_S16x256 (constantI S_ 32 0#32)))
              (addi (m ((c : Thread nD τ).loc main_arg0))
                (broadcastInDim S16x256 ![] bcast_S_S16x256 (constantI S_ 32 50257#32)))
              (m ((c : Thread nD τ).loc main_arg0)))))
        (broadcastInDim S16x256x640 ![0, 1, 2] bcast_S1x256x640_S16x256x640_0_1_2
          (broadcastInDim S1x256x640 ![1, 2] bcast_S256x640_S1x256x640_1_2 (m ((c : Thread nD τ).loc main_arg2))))) bitsLt_bf16_f32 := by
  dsimp only [V1, W1, hostOps0]; after_results

/-! ## The same, read at an index -/

theorem w9_apply (b : Fin 16) (t : Fin 256) (n : Fin 50257) (r : Fin 4096) (hr : r.val = b.val * 256 + t.val) :
    (W9 m ρ c (Proc.devRef .tc main_v21) : S16x256x50257.Idx → EReal) (ix3 b t n)
      = (W8 m ρ c (Proc.devRef .tc main_v20) : S4096x50257.Idx → EReal) (ix2 r n) := by
  rw [w9_v21]; exact Cert.LeadFold.shapeCast_mn_abn_apply _ _ b t n r hr

theorem v7_v15_apply (b : Fin 16) (t : Fin 256) (d : Fin 640) (r : Fin 4096) (hr : r.val = b.val * 256 + t.val) :
    (V7 m ρ c main_v15 : S4096x640.Idx → EReal) (ix2 r d)
      = (W2 m ρ c (Proc.devRef .tc main_v14) : S16x256x640.Idx → EReal) (ix3 b t d) := by
  rw [v7_v15]; exact Cert.LeadFold.shapeCast_abn_mn_apply _ _ r d b t hr

theorem v7_v17_apply (n : Fin 50257) (d : Fin 640) (n' : Fin 51200) (hn : n'.val = n.val) :
    (V7 m ρ c main_v17 : S51200x640.Idx → EReal) (ix2 n' d) = (m ((c : Thread nD τ).loc main_arg6) : S50257x640.Idx → EReal) (ix2 n d) := by
  rw [v7_v17]
  refine (pad_apply_of_inside _ _ _ _ _ pads_S50257x640_S51200x640_09430_000 h_S_ (ix2 n' d) (ix2 n d) fun a => ?_).trans rfl
  match a with
  | ⟨0, _⟩ => show n'.val = 0 + n.val * (0 + 1); omega
  | ⟨1, _⟩ => show d.val = 0 + d.val * (0 + 1); omega

theorem v7_v19_apply (n : Fin 50257) (n' : Fin 51200) (hn : n'.val = n.val) :
    (V7 m ρ c main_v19 : S1x51200.Idx → EReal) (ix2 (0 : Fin 1) n') = (m ((c : Thread nD τ).loc main_arg7) : S50257.Idx → EReal) (ix1 n) := by
  rw [v7_v19]
  refine (shapeCast_a_1a_apply _ shapeCasts_S51200_S1x51200 0 n').trans ?_
  refine pad_apply_of_inside _ _ _ _ _ pads_S50257_S51200_09430 h_S_ (ix1 n') (ix1 n) fun a => ?_
  match a with
  | ⟨0, _⟩ => show n'.val = 0 + n.val * (0 + 1); omega

end Cert.KernelIdeal.Glue

end
-- ==== Proof.KVal.lean ====
/-
  The idealized kernel program's result, read at an index.

  Entry (b, t, n) of the result is entry (256 b + t, n) of the projection region's output: the sum over the 640
  features of the attended value of sequence b at position t times the output weight of word n, plus that word's
  bias — the padding rows and columns of the weights and the bias are never read below word 50257. The attended
  value is the attention region's output at (b, t, d), which is the attention of sequence b's embedded input.
-/
import proofs.«155885_j89575837925919_2_alg».proof.Proof.Blocks0
import proofs.«155885_j89575837925919_2_alg».proof.Proof.Blocks1
import proofs.«155885_j89575837925919_2_alg».proof.Proof.Glue

set_option maxRecDepth 16384

noncomputable section

open scoped BigOperators

namespace Cert.KernelIdeal.KVal

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The attention region's output array, whole. -/
theorem attn_out : (W2 m ρ c (Proc.devRef .tc main_v14) : S16x256x640.Idx → EReal)
    = Cert.KernelIdeal.AttnBlocks.G0 (V1 m ρ c main_v10) (V1 m ρ c main_v11) (V1 m ρ c main_v12) (V1 m ρ c main_v13) :=
  (W2_arr m ρ c 4).trans (Cert.KernelIdeal.AttnBlocks.final0 (V1 m ρ) c)

/-- The projection region's output array, whole. -/
theorem proj_out : (W8 m ρ c (Proc.devRef .tc main_v20) : S4096x50257.Idx → EReal)
    = Cert.KernelIdeal.OutProj.G1 (V7 m ρ c main_v15) (V7 m ρ c main_v17) (V7 m ρ c main_v19) :=
  (W8_arr m ρ c 3).trans (Cert.KernelIdeal.OutProj.final1 (V7 m ρ) c)

/-- The attended value of sequence b at position t, feature d, as the projection region reads it. -/
theorem act_apply (b : Fin 16) (t : Fin 256) (d : Fin 640) (r : Fin 4096) (hr : r.val = b.val * 256 + t.val) :
    (V7 m ρ c main_v15 : S4096x640.Idx → EReal) (ix2 r d)
      = Cert.Attn.ctx (fun t d => (V1 m ρ c main_v10 : S16x256x640.Idx → EReal) (ix3 b t d))
          (fun e d => (m ((c : Thread nD τ).loc main_arg3) : S640x640.Idx → EReal) (ix2 e d))
          (fun e d => (m ((c : Thread nD τ).loc main_arg4) : S640x640.Idx → EReal) (ix2 e d))
          (fun e d => (m ((c : Thread nD τ).loc main_arg5) : S640x640.Idx → EReal) (ix2 e d)) t d := by
  refine (Cert.KernelIdeal.Glue.v7_v15_apply m ρ c b t d r hr).trans ?_
  rw [attn_out, Cert.KernelIdeal.Glue.v1_v11, Cert.KernelIdeal.Glue.v1_v12, Cert.KernelIdeal.Glue.v1_v13]
  rfl

/-- The result at (b, t, n). -/
theorem kernel_apply (b : Fin 16) (t : Fin 256) (n : Fin 50257) :
    (W9 m ρ c (Proc.devRef .tc main_v21) : S16x256x50257.Idx → EReal) (ix3 b t n)
      = Cert.Attn.logit
          (Cert.Attn.ctx (fun t d => (V1 m ρ c main_v10 : S16x256x640.Idx → EReal) (ix3 b t d))
            (fun e d => (m ((c : Thread nD τ).loc main_arg3) : S640x640.Idx → EReal) (ix2 e d))
            (fun e d => (m ((c : Thread nD τ).loc main_arg4) : S640x640.Idx → EReal) (ix2 e d))
            (fun e d => (m ((c : Thread nD τ).loc main_arg5) : S640x640.Idx → EReal) (ix2 e d)) t)
          (fun n d => (m ((c : Thread nD τ).loc main_arg6) : S50257x640.Idx → EReal) (ix2 n d))
          (fun n => (m ((c : Thread nD τ).loc main_arg7) : S50257.Idx → EReal) (ix1 n)) n := by
  have hr : b.val * 256 + t.val < 4096 := by have := b.isLt; have := t.isLt; omega
  have hn : n.val < 51200 := by have := n.isLt; omega
  refine (Cert.KernelIdeal.Glue.w9_apply m ρ c b t n ⟨b.val * 256 + t.val, hr⟩ rfl).trans ?_
  rw [proj_out]
  unfold Cert.KernelIdeal.OutProj.G1 Cert.Attn.logit
  refine congrArg₂ (· + ·) (Finset.sum_congr rfl fun d _ => congrArg₂ (· * ·) ?_ ?_) ?_
  · exact act_apply m ρ c b t d _ rfl
  · exact Cert.KernelIdeal.Glue.v7_v17_apply m ρ c n d _ rfl
  · exact Cert.KernelIdeal.Glue.v7_v19_apply m ρ c n _ rfl

end Cert.KernelIdeal.KVal

end
-- ==== Proof.XEq.lean ====
/-
  The two programs start from the same array.

  Both look the token ids up in the embedding table (a negative id wrapped once by the table's length) and add the
  position rows; the kernel program then changes the format, which on extended reals is the identity. So the array the
  attention region is entered with is, term for term, the reference's embedded input.
-/
import proofs.«155885_j89575837925919_2_alg».proof.Proof.Glue
import proofs.«155885_j89575837925919_2_alg».proof.Proof.Gen.ReferenceIdeal.Read

set_option maxRecDepth 16384

noncomputable section

namespace Cert.KernelIdeal.XEq

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The attention region's input array is the reference's embedded input of the same arguments. -/
theorem x_eq : (V1 m ρ c main_v10 : S16x256x640.Idx → EReal)
    = Cert.ReferenceIdeal.Read.val_main_v9 (F := Ideal) (m ((c : Thread nD τ).loc main_arg0)) (m ((c : Thread nD τ).loc main_arg1))
        (m ((c : Thread nD τ).loc main_arg2)) := by
  rw [Cert.KernelIdeal.Glue.v1_v10]
  unfold Cert.ReferenceIdeal.Read.val_main_v9 Cert.ReferenceIdeal.Read.val_main_v6 Cert.ReferenceIdeal.Read.val_main_v8
    Cert.ReferenceIdeal.Read.val_main_v7 Cert.ReferenceIdeal.Read.val_main_v5 Cert.ReferenceIdeal.Read.val_main_v4
    Cert.ReferenceIdeal.Read.val_main_v3 Cert.ReferenceIdeal.Read.val_main_v1 Cert.ReferenceIdeal.Read.val_main_v2
    Cert.ReferenceIdeal.Read.val_main_v0 Cert.ReferenceIdeal.Read.val_main_c Cert.ReferenceIdeal.Read.val_main_c_0
  rfl

end Cert.KernelIdeal.XEq

end
-- ==== Proof.RefRead.lean ====
/-
  The reference program read at one index: its result at batch member b, position t, word n is the specification's logit.

  Stage by stage, each at an index given by its coordinates:
  * the three products with the square weight matrices are the projections of the embedded sequence of batch member b;
  * the batched product of queries and keys is the dot product of the projections;
  * the mask bit is set exactly where the key's position is after the query's (a signed 32-bit comparison of two
    numbers below 256 is the comparison of the numbers), so the selected array is the scaled dot product or minus infinity;
  * the maximum along the last axis is the fold of max from minus infinity, and a further maximum with minus infinity
    changes nothing;
  * the exponentials, their sum from zero, and the quotient are the softmax weight;
  * the product with the values is the attended row, and the product with the vocabulary matrix plus the bias the logit.
-/
import proofs.«155885_j89575837925919_2_alg».proof.Proof.Gen.ReferenceIdeal.Read
import proofs.«155885_j89575837925919_2_alg».proof.Proof.Spec

noncomputable section

open scoped BigOperators

namespace Cert.ReferenceIdeal.RefValue

open Cert.ReferenceIdeal Cert.ReferenceIdeal.Read Idealize.ShloMosaic Idealize.ShloMosaic.ValueIdx Cert.Attn

/-! ## The operands by plain coordinates -/

/-- The embedded sequence of batch member `b`: position `t`, feature `d`. -/
abbrev xb (x0 : (⟨S16x256, .i32⟩ : BufTy).Contents (Elt Ideal)) (x1 : (⟨S50257x640, .f32⟩ : BufTy).Contents (Elt Ideal)) (x2 : (⟨S256x640, .f32⟩ : BufTy).Contents (Elt Ideal)) (b : Fin 16) : Fin 256 → Fin 640 → EReal :=
  fun t d => val_main_v9 (F := Ideal) x0 x1 x2 (ix3 b t d)

/-- A square weight matrix by output feature and input feature. -/
abbrev wm (w : (⟨S640x640, .f32⟩ : BufTy).Contents (Elt Ideal)) : Fin 640 → Fin 640 → EReal := fun e d => w (ix2 e d)

/-! ## The index maps at an index given by its coordinates -/

theorem lidx10 (b : Fin 16) (t : Fin 256) (e k : Fin 640) : lidx_main_v10 (ix3 b t e) k = ix3 b t k := funext fun a => Fin.ext (by match a with | ⟨0, _⟩ => rfl | ⟨1, _⟩ => rfl | ⟨2, _⟩ => rfl)
theorem ridx10 (b : Fin 16) (t : Fin 256) (e k : Fin 640) : ridx_main_v10 (ix3 b t e) k = ix2 e k := funext fun a => Fin.ext (by match a with | ⟨0, _⟩ => rfl | ⟨1, _⟩ => rfl)
theorem lidx13 (b : Fin 16) (t u : Fin 256) (k : Fin 640) : lidx_main_v13 (ix3 b t u) k = ix3 b t k := funext fun a => Fin.ext (by match a with | ⟨0, _⟩ => rfl | ⟨1, _⟩ => rfl | ⟨2, _⟩ => rfl)
theorem ridx13 (b : Fin 16) (t u : Fin 256) (k : Fin 640) : ridx_main_v13 (ix3 b t u) k = ix3 b u k := funext fun a => Fin.ext (by match a with | ⟨0, _⟩ => rfl | ⟨1, _⟩ => rfl | ⟨2, _⟩ => rfl)
theorem idxMask (b : Fin 16) (t u : Fin 256) : idx_main_call1_v0 (ix3 b t u) = ix2 t u := funext fun a => Fin.ext (by match a with | ⟨0, _⟩ => rfl | ⟨1, _⟩ => rfl)
theorem idx2223 (b : Fin 16) (t u : Fin 256) : idx_main_v22 (idx_main_v23 (ix3 b t u)) = ix2 b t := funext fun a => Fin.ext (by match a with | ⟨0, _⟩ => rfl | ⟨1, _⟩ => rfl)
theorem idx2728 (b : Fin 16) (t u : Fin 256) : idx_main_v27 (idx_main_v28 (ix3 b t u)) = ix2 b t := funext fun a => Fin.ext (by match a with | ⟨0, _⟩ => rfl | ⟨1, _⟩ => rfl)
theorem idx26 (b : Fin 16) (t k : Fin 256) : idx_main_v26 (ix2 b t) k = ix3 b t k := funext fun a => Fin.ext (by match a with | ⟨0, _⟩ => rfl | ⟨1, _⟩ => rfl | ⟨2, _⟩ => rfl)
theorem lidx30 (b : Fin 16) (t : Fin 256) (d : Fin 640) (k : Fin 256) : lidx_main_v30 (ix3 b t d) k = ix3 b t k := funext fun a => Fin.ext (by match a with | ⟨0, _⟩ => rfl | ⟨1, _⟩ => rfl | ⟨2, _⟩ => rfl)
theorem ridx30 (b : Fin 16) (t : Fin 256) (d : Fin 640) (k : Fin 256) : ridx_main_v30 (ix3 b t d) k = ix3 b k d := funext fun a => Fin.ext (by match a with | ⟨0, _⟩ => rfl | ⟨1, _⟩ => rfl | ⟨2, _⟩ => rfl)
theorem lidx31 (b : Fin 16) (t : Fin 256) (n : Fin 50257) (k : Fin 640) : lidx_main_v31 (ix3 b t n) k = ix3 b t k := funext fun a => Fin.ext (by match a with | ⟨0, _⟩ => rfl | ⟨1, _⟩ => rfl | ⟨2, _⟩ => rfl)
theorem ridx31 (b : Fin 16) (t : Fin 256) (n : Fin 50257) (k : Fin 640) : ridx_main_v31 (ix3 b t n) k = ix2 n k := funext fun a => Fin.ext (by match a with | ⟨0, _⟩ => rfl | ⟨1, _⟩ => rfl)
theorem idx3233 (b : Fin 16) (t : Fin 256) (n : Fin 50257) : idx_main_v32 (idx_main_v33 (ix3 b t n)) = ix1 n := funext fun a => Fin.ext (by match a with | ⟨0, _⟩ => rfl)

/-! ## The three projections -/

/-- The sum a product with a weight matrix reads at (b, t, e) is the projection of position `t` on feature `e`. -/
theorem proj_read (x0 : (⟨S16x256, .i32⟩ : BufTy).Contents (Elt Ideal)) (x1 : (⟨S50257x640, .f32⟩ : BufTy).Contents (Elt Ideal)) (x2 : (⟨S256x640, .f32⟩ : BufTy).Contents (Elt Ideal)) (w : (⟨S640x640, .f32⟩ : BufTy).Contents (Elt Ideal)) (b : Fin 16) (t : Fin 256) (e : Fin 640) :
    ∑ k : Fin 640, val_main_v9 (F := Ideal) x0 x1 x2 (lidx_main_v10 (ix3 b t e) k) * w (ridx_main_v10 (ix3 b t e) k)
      = proj (xb x0 x1 x2 b) (wm w) t e := by
  unfold proj
  exact Finset.sum_congr rfl fun k _ => by rw [lidx10, ridx10]

theorem q_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 : (⟨S640x640, .f32⟩ : BufTy).Contents (Elt Ideal)) (b : Fin 16) (t : Fin 256) (e : Fin 640) :
    val_main_v10 (F := Ideal) x0 x1 x2 x3 (ix3 b t e) = proj (xb x0 x1 x2 b) (wm x3) t e :=
  (val_main_v10_apply x0 x1 x2 x3 _).trans (proj_read x0 x1 x2 x3 b t e)

theorem k_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x4 : (⟨S640x640, .f32⟩ : BufTy).Contents (Elt Ideal)) (b : Fin 16) (t : Fin 256) (e : Fin 640) :
    val_main_v11 (F := Ideal) x0 x1 x2 x4 (ix3 b t e) = proj (xb x0 x1 x2 b) (wm x4) t e :=
  (val_main_v11_apply x0 x1 x2 x4 _).trans (proj_read x0 x1 x2 x4 b t e)

theorem v_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x5 : (⟨S640x640, .f32⟩ : BufTy).Contents (Elt Ideal)) (b : Fin 16) (t : Fin 256) (e : Fin 640) :
    val_main_v12 (F := Ideal) x0 x1 x2 x5 (ix3 b t e) = proj (xb x0 x1 x2 b) (wm x5) t e :=
  (val_main_v12_apply x0 x1 x2 x5 _).trans (proj_read x0 x1 x2 x5 b t e)

/-! ## The dot products -/

theorem score_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 : (⟨S640x640, .f32⟩ : BufTy).Contents (Elt Ideal)) (b : Fin 16) (t u : Fin 256) :
    val_main_v13 (F := Ideal) x0 x1 x2 x3 x4 (ix3 b t u) = score (xb x0 x1 x2 b) (wm x3) (wm x4) t u := by
  refine (val_main_v13_apply x0 x1 x2 x3 x4 _).trans ?_
  unfold score
  refine Finset.sum_congr rfl fun k _ => ?_
  rw [lidx13, ridx13, q_apply, k_apply]

/-! ## The mask: the bit is set exactly where the key's position is after the query's -/

/-- For positions below 256 the signed 32-bit comparison "row + 0 ≥ column" is the comparison of the positions. -/
theorem mask_bit (t u : Fin 256) :
    IntOp.cmpi .sge (IntOp.addi (BitVec.ofNat 32 t.val) 0#32) (BitVec.ofNat 32 u.val) = if t.val < u.val then 0#1 else 1#1 := by
  have ht := t.isLt
  have hu := u.isLt
  simp only [IntOp.cmpi, IntOp.addi, BitVec.add_zero, BitVec.sle, BitVec.toInt_eq_toNat_cond, BitVec.toNat_ofNat]
  have e1 : t.val % 2 ^ 32 = t.val := Nat.mod_eq_of_lt (by omega)
  have e2 : u.val % 2 ^ 32 = u.val := Nat.mod_eq_of_lt (by omega)
  rw [e1, e2, if_pos (show 2 * u.val < 2 ^ 32 by omega), if_pos (show 2 * t.val < 2 ^ 32 by omega)]
  by_cases h : t.val < u.val
  · rw [if_pos h, decide_eq_false (by omega)]; rfl
  · rw [if_neg h, decide_eq_true (by omega)]; rfl

theorem mask_apply (b : Fin 16) (t u : Fin 256) :
    val_main_call1_v0 (F := Ideal) (ix3 b t u) = if t.val < u.val then 1#1 else 0#1 := by
  rw [val_main_call1_v0_apply, idxMask, val_main_v17_apply, val_main_call0_v4_apply, val_main_call0_v2_apply,
    val_main_call0_v0_apply, val_main_call0_v1_apply, val_main_call0_c_apply, val_main_call0_v3_apply,
    val_main_call0_v5_apply, val_main_call0_c_0_apply, val_main_v16_apply, val_main_c_1_apply]
  show Scalar.select (IntOp.cmpi .sge (IntOp.addi (BitVec.ofNat 32 t.val) 0#32) (BitVec.ofNat 32 u.val)) 0#1 1#1 = _
  rw [mask_bit]
  by_cases h : t.val < u.val
  · rw [if_pos h, if_pos h]; rfl
  · rw [if_neg h, if_neg h]; rfl

theorem masked_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 : (⟨S640x640, .f32⟩ : BufTy).Contents (Elt Ideal)) (b : Fin 16) (t u : Fin 256) :
    val_main_v18 (F := Ideal) x0 x1 x2 x3 x4 (ix3 b t u) = masked (xb x0 x1 x2 b) (wm x3) (wm x4) t u := by
  rw [val_main_v18_apply, mask_apply, val_main_call1_v1_apply, val_main_cst_2_apply, val_main_v15_apply, score_apply,
    val_main_v14_apply, val_main_cst_apply]
  unfold masked
  by_cases h : t.val < u.val
  · rw [if_pos h, if_pos h]; exact select_one _ _
  · rw [if_neg h, if_neg h]; exact select_zero _ _

/-! ## The row maximum -/

/-- The host's reduce with a maximum body along the last axis of an [a, g, n] array, at (p, q): the fold of max, from the
    initial value, over k of the array at (p, q, k). -/
theorem hostLastMax3_apply {φ : FTy} {u : Shape} {a g n : ℕ} (x : FVec Ideal ⟨3, ![a, g, n]⟩ φ) (init : FVec Ideal u φ)
    (h' : (⟨3, ![a, g, n]⟩ : Shape).ReducesTo [2] ⟨2, ![a, g]⟩) (h : (⟨3, ![a, g, n]⟩ : Shape).Reduces [2] ⟨2, ![a, g]⟩)
    (hu : 0 < u.numel) (p : Fin a) (q : Fin g) :
    Host.reduce FloatOps.maximumf x init h' hu (ix2 p q)
      = (Finset.univ : Finset (Fin n)).fold max (init (Shape.Idx.first hu)) (fun k => x (ix3 p q k)) := by
  rw [Host.reduce_eq_fold_single FloatOps.maximumf x init h' h hu]
  refine congrArg (fun f : Fin n → Ideal φ => (Finset.univ : Finset (Fin n)).fold max (init (Shape.Idx.first hu)) f)
    (funext fun k => congrArg x (funext fun d => Fin.ext ?_))
  rw [h.lift_val]
  match d with
  | ⟨0, _⟩ => rfl
  | ⟨1, _⟩ => rfl
  | ⟨2, _⟩ => rfl

theorem hostMax_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 : (⟨S640x640, .f32⟩ : BufTy).Contents (Elt Ideal)) (b : Fin 16) (t : Fin 256) :
    val_main_v19 (F := Ideal) x0 x1 x2 x3 x4 (ix2 b t) = rowMax (xb x0 x1 x2 b) (wm x3) (wm x4) t := by
  unfold val_main_v19
  refine (hostLastMax3_apply _ _ _ (by decide) _ b t).trans ?_
  unfold rowMax
  exact congrArg (fun f : Fin 256 → EReal => (Finset.univ : Finset (Fin 256)).fold max negInf f)
    (funext fun k => masked_apply x0 x1 x2 x3 x4 b t k)

/-- A maximum with minus infinity changes nothing in a fold of max that starts from minus infinity. -/
theorem rowMax_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 : (⟨S640x640, .f32⟩ : BufTy).Contents (Elt Ideal)) (b : Fin 16) (t : Fin 256) :
    val_main_v21 (F := Ideal) x0 x1 x2 x3 x4 (ix2 b t) = rowMax (xb x0 x1 x2 b) (wm x3) (wm x4) t := by
  rw [val_main_v21_apply, val_main_v20_apply, val_main_cst_4_apply, hostMax_apply]
  show max negInf (rowMax (xb x0 x1 x2 b) (wm x3) (wm x4) t) = rowMax (xb x0 x1 x2 b) (wm x3) (wm x4) t
  refine max_eq_right ?_
  unfold rowMax
  exact (Finset.le_fold_max _).mpr (Or.inl le_rfl)

/-! ## The softmax weights -/

theorem exp_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 : (⟨S640x640, .f32⟩ : BufTy).Contents (Elt Ideal)) (b : Fin 16) (t u : Fin 256) :
    val_main_v25 (F := Ideal) x0 x1 x2 x3 x4 (ix3 b t u)
      = Ideal.exp (masked (xb x0 x1 x2 b) (wm x3) (wm x4) t u - rowMax (xb x0 x1 x2 b) (wm x3) (wm x4) t) := by
  rw [val_main_v25_apply, val_main_v24_apply, masked_apply, val_main_v23_apply, val_main_v22_apply, idx2223, rowMax_apply]
  rfl

theorem den_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 : (⟨S640x640, .f32⟩ : BufTy).Contents (Elt Ideal)) (b : Fin 16) (t : Fin 256) :
    val_main_v26 (F := Ideal) x0 x1 x2 x3 x4 (ix2 b t)
      = ∑ k : Fin 256, Ideal.exp (masked (xb x0 x1 x2 b) (wm x3) (wm x4) t k - rowMax (xb x0 x1 x2 b) (wm x3) (wm x4) t) := by
  rw [val_main_v26_apply, val_main_cst_5_apply]
  show Ideal.ofBits .f32 0x00000000#32 + _ = _
  rw [Ideal.ofBits_zero_f32, zero_add]
  exact Finset.sum_congr rfl fun k _ => by rw [idx26, exp_apply]

theorem attn_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 : (⟨S640x640, .f32⟩ : BufTy).Contents (Elt Ideal)) (b : Fin 16) (t u : Fin 256) :
    val_main_v29 (F := Ideal) x0 x1 x2 x3 x4 (ix3 b t u) = attn (xb x0 x1 x2 b) (wm x3) (wm x4) t u := by
  rw [val_main_v29_apply, exp_apply, val_main_v28_apply, val_main_v27_apply, idx2728, den_apply]
  rfl

/-! ## The attended values and the vocabulary projection -/

theorem ctx_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 x5 : (⟨S640x640, .f32⟩ : BufTy).Contents (Elt Ideal)) (b : Fin 16) (t : Fin 256) (d : Fin 640) :
    val_main_v30 (F := Ideal) x0 x1 x2 x3 x4 x5 (ix3 b t d) = ctx (xb x0 x1 x2 b) (wm x3) (wm x4) (wm x5) t d := by
  refine (val_main_v30_apply x0 x1 x2 x3 x4 x5 _).trans ?_
  unfold ctx
  refine Finset.sum_congr rfl fun k _ => ?_
  rw [lidx30, ridx30, attn_apply, v_apply]

/-- The reference's result at (b, t, n) is the specification's logit of word `n` for the attended row of position `t` of
    batch member `b`. -/
theorem ref_apply (x0 : (⟨S16x256, .i32⟩ : BufTy).Contents (Elt Ideal)) (x1 : (⟨S50257x640, .f32⟩ : BufTy).Contents (Elt Ideal)) (x2 : (⟨S256x640, .f32⟩ : BufTy).Contents (Elt Ideal)) (x3 x4 x5 : (⟨S640x640, .f32⟩ : BufTy).Contents (Elt Ideal)) (x6 : (⟨S50257x640, .f32⟩ : BufTy).Contents (Elt Ideal)) (x7 : (⟨S50257, .f32⟩ : BufTy).Contents (Elt Ideal)) (b : Fin 16) (t : Fin 256) (n : Fin 50257) :
    val_main_v34 (F := Ideal) x0 x1 x2 x3 x4 x5 x6 x7 (ix3 b t n)
      = logit (ctx (fun t d => val_main_v9 (F := Ideal) x0 x1 x2 (ix3 b t d)) (fun e d => x3 (ix2 e d)) (fun e d => x4 (ix2 e d)) (fun e d => x5 (ix2 e d)) t)
          (fun n d => x6 (ix2 n d)) (fun n => x7 (ix1 n)) n := by
  rw [val_main_v34_apply, val_main_v31_apply, val_main_v33_apply, val_main_v32_apply, idx3233]
  unfold logit
  refine congrArg (· + x7 (ix1 n)) (Finset.sum_congr rfl fun k _ => ?_)
  rw [lidx31, ridx31, ctx_apply]

end Cert.ReferenceIdeal.RefValue

end
-- ==== Proof.Bridge.lean ====
/-
  The two idealized programs compute one array.

  At every index (b, t, n) the kernel program's result and the reference's result are the same expression of the
  argument arrays: the projection on word n, plus its bias, of the causal softmax attention of sequence b's embedded
  input at position t. The kernel's multiplication of the dot products by the reciprocal of the reference's divisor
  is the reference's division, its mask fill is minus infinity, and its padded weight rows and bias entries are never
  read below word 50257; sums and maxima are the extended reals' own, so no tiling or order of summation is left.
-/
import proofs.«155885_j89575837925919_2_alg».proof.Proof.KVal
import proofs.«155885_j89575837925919_2_alg».proof.Proof.XEq
import proofs.«155885_j89575837925919_2_alg».proof.Proof.RefRead

set_option maxRecDepth 16384

noncomputable section

namespace Cert.KernelIdeal.Bridge

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- The kernel program's result array is the reference's result term of the same arguments. -/
theorem value_eq : (W9 m ρ c (Proc.devRef .tc main_v21) : S16x256x50257.Idx → EReal)
    = Cert.ReferenceIdeal.Read.val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  funext i
  obtain ⟨b, t, n, rfl⟩ : ∃ (b : Fin 16) (t : Fin 256) (n : Fin 50257), i = ix3 b t n := ⟨i 0, i 1, i 2, eq_ix3 i⟩
  rw [Cert.KernelIdeal.KVal.kernel_apply, Cert.ReferenceIdeal.RefValue.ref_apply, Cert.KernelIdeal.XEq.x_eq]

end Cert.KernelIdeal.Bridge

end
-- ==== Proof.lean ====
/-
  Causal single-head self-attention followed by a projection on a vocabulary, as two Pallas regions with host
  operations around them, against the same computation written with jnp.

  The claim has five parts. The three frames: each program, run from a memory whose float inputs are finite, ends,
  nothing faulting, with its argument arrays unchanged. The idealization: the kernel's multiplier of the attention
  scores, the single-precision word nearest to 1/√640, is read as the exact reciprocal 262144/6631777 of the
  reference's divisor (the single-precision word nearest to √640, which is 6631777/262144), and its mask fill is read
  as minus infinity. The equality: on the extended reals both programs end with the same [16, 256, 50257] array of
  logits — index by index the projection, plus bias, of the softmax attention of the embedded input, where the
  kernel's product with the reciprocal is the reference's quotient, the kernel's tiles and zero padding read exactly
  the entries the reference's whole-array products read, and sums and maxima carry no order.
-/
import proofs.«155885_j89575837925919_2_alg».proof.Defs
import proofs.«155885_j89575837925919_2_alg».proof.Proof.Gen.Kernel
import proofs.«155885_j89575837925919_2_alg».proof.Proof.Gen.Kernel.Skeleton
import proofs.«155885_j89575837925919_2_alg».proof.Proof.Gen.Kernel.Launch
import proofs.«155885_j89575837925919_2_alg».proof.Proof.Gen.Kernel.Points
import proofs.«155885_j89575837925919_2_alg».proof.Proof.Gen.Kernel.Frame
import proofs.«155885_j89575837925919_2_alg».proof.Proof.Gen.KernelIdeal
import proofs.«155885_j89575837925919_2_alg».proof.Proof.Gen.KernelIdeal.Skeleton
import proofs.«155885_j89575837925919_2_alg».proof.Proof.Gen.KernelIdeal.Launch
import proofs.«155885_j89575837925919_2_alg».proof.Proof.Gen.KernelIdeal.Points
import proofs.«155885_j89575837925919_2_alg».proof.Proof.Gen.KernelIdeal.Frame
import proofs.«155885_j89575837925919_2_alg».proof.Proof.Gen.ReferenceIdeal
import proofs.«155885_j89575837925919_2_alg».proof.Proof.Gen.ReferenceIdeal.Run
import proofs.«155885_j89575837925919_2_alg».proof.Proof.Gen.ReferenceIdeal.Read
import proofs.«155885_j89575837925919_2_alg».proof.Proof.Gen.Pre_finite_inputs
import proofs.«155885_j89575837925919_2_alg».proof.Proof.KRun
import proofs.«155885_j89575837925919_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel :=
  fun m ρ _ => Cert.Kernel.Gen.frame m ρ

/-- So does the idealized kernel program. -/
theorem frame_kernelIdeal : Cert.frame_KernelIdeal :=
  fun m ρ _ => Cert.KernelIdeal.Gen.frame m ρ

/-- The reference runs: its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- The two named constants denote, on the extended reals, the values the table gives them. -/
theorem preserves : Cert.preserves_Kernel_KernelIdeal :=
  ⟨IdealRules.named_const.statement Cert.KernelIdeal.κ "inv_scale" .f32 0x3D21E89B#32 ((262144 / 6631777 : ℝ) : EReal) rfl,
   IdealRules.named_const.statement Cert.KernelIdeal.κ "neg_big" .f32 0xFF333332#32 ⊥ rfl⟩

/-- From memories that agree on the arguments both idealized programs end with the same logits. -/
theorem algebraic : Cert.algebraic_KernelIdeal_ReferenceIdeal := by
  intro m ρ m' ρ' _ hagree
  refine ⟨fun c => Cert.KernelIdeal.Gen.W9 m ρ c (Proc.devRef .tc Cert.KernelIdeal.main_v21),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v34_eq, h0, h1, h2, h3, h4, h5, h6, h7]
  exact (Cert.KernelIdeal.Bridge.value_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
